-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x224x224 : Shape := ⟨3, ![128, 224, 224]⟩
abbrev S128x1000 : Shape := ⟨2, ![128, 1000]⟩
abbrev S128x4x224x224 : Shape := ⟨4, ![128, 4, 224, 224]⟩
abbrev S128 : Shape := ⟨1, ![128]⟩
abbrev S128x5x224x224 : Shape := ⟨4, ![128, 5, 224, 224]⟩
abbrev S_ : Shape := ⟨0, ![]⟩

class Facts : Prop where
  bcast_S_S128x224x224 : S_.BroadcastsInDim S128x224x224 (![] : Fin 0 → Fin S128x224x224.rank)
  reducesTo_S128x224x224_S_d0_1_2 : S128x224x224.ReducesTo [0, 1, 2] S_
  h_S_ : 0 < S_.numel
  bcast_S_S128x1000 : S_.BroadcastsInDim S128x1000 (![] : Fin 0 → Fin S128x1000.rank)
  reducesTo_S128x1000_S_d0_1 : S128x1000.ReducesTo [0, 1] S_
  bcast_S_S128x4x224x224 : S_.BroadcastsInDim S128x4x224x224 (![] : Fin 0 → Fin S128x4x224x224.rank)
  reducesTo_S128x4x224x224_S_d0_1_2_3 : S128x4x224x224.ReducesTo [0, 1, 2, 3] S_
  bcast_S_S128x5x224x224 : S_.BroadcastsInDim S128x5x224x224 (![] : Fin 0 → Fin S128x5x224x224.rank)
  reducesTo_S128x5x224x224_S_d0_1_2_3 : S128x5x224x224.ReducesTo [0, 1, 2, 3] S_
  reducesTo_S_S_d : S_.ReducesTo [] S_

variable [Facts]

def fn_part1 {F : FTy → Type} [FloatOps F] (main_arg5 : FVec F S_ .f32) (main_arg6 : FVec F S_ .f32) (main_arg7 : FVec F S_ .f32) (main_v13 : IVec S_ 1) (main_v16 : IVec S128x5x224x224 1) : IVec S_ 1 :=
  let main_c_5 : IVec S_ 1 := constantI S_ 1 1#1
  let main_v17 : IVec S_ 1 := (fun x v => Host.reduce IntOp.andi x v reducesTo_S128x5x224x224_S_d0_1_2_3 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S_ .f32 := Host.absf main_arg6
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  let main_v27 : FVec F S_ .f32 := Host.absf main_arg7
  let main_cst_10 : FVec F S_ .f32 := constant S_ .f32 0x7F800000#32
  let main_v28 : IVec S_ 1 := cmpf .olt main_v27 main_cst_10
  let main_c_11 : IVec S_ 1 := constantI S_ 1 1#1
  let main_v29 : IVec S_ 1 := (fun x v => Host.reduce IntOp.andi x v reducesTo_S_S_d h_S_) main_v28 main_c_11
  let main_v30 : IVec S_ 1 := andi main_v26 main_v29
  main_v30

def fn {F : FTy → Type} [FloatOps F] (main_arg0 : FVec F S128x224x224 .f32) (main_arg1 : FVec F S128x1000 .f32) (main_arg2 : FVec F S128x4x224x224 .f32) (main_arg3 : IVec S128 32) (main_arg4 : FVec F S128x5x224x224 .f32) (main_arg5 : FVec F S_ .f32) (main_arg6 : FVec F S_ .f32) (main_arg7 : FVec F S_ .f32) : IVec S_ 1 :=
  let main_v0 : FVec F S128x224x224 .f32 := Host.absf main_arg0
  let main_cst : FVec F S_ .f32 := constant S_ .f32 0x7F800000#32
  let main_v1 : FVec F S128x224x224 .f32 := broadcastInDim S128x224x224 ![] bcast_S_S128x224x224 main_cst
  let main_v2 : IVec S128x224x224 1 := cmpf .olt main_v0 main_v1
  let main_c : IVec S_ 1 := constantI S_ 1 1#1
  let main_v3 : IVec S_ 1 := (fun x v => Host.reduce IntOp.andi x v reducesTo_S128x224x224_S_d0_1_2 h_S_) main_v2 main_c
  let main_v4 : FVec F S128x1000 .f32 := Host.absf main_arg1
  let main_cst_0 : FVec F S_ .f32 := constant S_ .f32 0x7F800000#32
  let main_v5 : FVec F S128x1000 .f32 := broadcastInDim S128x1000 ![] bcast_S_S128x1000 main_cst_0
  let main_v6 : IVec S128x1000 1 := cmpf .olt main_v4 main_v5
  let main_c_1 : IVec S_ 1 := constantI S_ 1 1#1
  let main_v7 : IVec S_ 1 := (fun x v => Host.reduce IntOp.andi x v reducesTo_S128x1000_S_d0_1 h_S_) main_v6 main_c_1
  let main_v8 : IVec S_ 1 := andi main_v3 main_v7
  let main_v9 : FVec F S128x4x224x224 .f32 := Host.absf main_arg2
  let main_cst_2 : FVec F S_ .f32 := constant S_ .f32 0x7F800000#32
  let main_v10 : FVec F S128x4x224x224 .f32 := broadcastInDim S128x4x224x224 ![] bcast_S_S128x4x224x224 main_cst_2
  let main_v11 : IVec S128x4x224x224 1 := cmpf .olt main_v9 main_v10
  let main_c_3 : IVec S_ 1 := constantI S_ 1 1#1
  let main_v12 : IVec S_ 1 := (fun x v => Host.reduce IntOp.andi x v reducesTo_S128x4x224x224_S_d0_1_2_3 h_S_) main_v11 main_c_3
  let main_v13 : IVec S_ 1 := andi main_v8 main_v12
  let main_v14 : FVec F S128x5x224x224 .f32 := Host.absf main_arg4
  let main_cst_4 : FVec F S_ .f32 := constant S_ .f32 0x7F800000#32
  let main_v15 : FVec F S128x5x224x224 .f32 := broadcastInDim S128x5x224x224 ![] bcast_S_S128x5x224x224 main_cst_4
  let main_v16 : IVec S128x5x224x224 1 := cmpf .olt main_v14 main_v15
  fn_part1 (F := F) main_arg5 main_arg6 main_arg7 main_v13 main_v16
-- ==== Kernel.lean ====
abbrev S128x224x224 : Shape := ⟨3, ![128, 224, 224]⟩
abbrev S128x1000 : Shape := ⟨2, ![128, 1000]⟩
abbrev S128x4x224x224 : Shape := ⟨4, ![128, 4, 224, 224]⟩
abbrev S128 : Shape := ⟨1, ![128]⟩
abbrev S128x5x224x224 : Shape := ⟨4, ![128, 5, 224, 224]⟩
abbrev S_ : Shape := ⟨0, ![]⟩
abbrev S2x1x128 : Shape := ⟨3, ![2, 1, 128]⟩
abbrev S4x224x224 : Shape := ⟨3, ![4, 224, 224]⟩
abbrev S4x5x224x224 : Shape := ⟨4, ![4, 5, 224, 224]⟩
abbrev S4x4x224x224 : Shape := ⟨4, ![4, 4, 224, 224]⟩
abbrev S1x1x128 : Shape := ⟨3, ![1, 1, 128]⟩
abbrev S4x1x224x224 : Shape := ⟨4, ![4, 1, 224, 224]⟩
abbrev S4x224 : Shape := ⟨2, ![4, 224]⟩
abbrev S4x224x1 : Shape := ⟨3, ![4, 224, 1]⟩
abbrev S4x1 : Shape := ⟨2, ![4, 1]⟩
abbrev S4x1x1 : Shape := ⟨3, ![4, 1, 1]⟩
abbrev S1x1 : Shape := ⟨2, ![1, 1]⟩
abbrev S1x1x1 : Shape := ⟨3, ![1, 1, 1]⟩
abbrev S2x128 : Shape := ⟨2, ![2, 128]⟩
abbrev S2x1 : Shape := ⟨2, ![2, 1]⟩
abbrev S2 : Shape := ⟨1, ![2]⟩
abbrev S128x1 : Shape := ⟨2, ![128, 1]⟩
abbrev S128x1x1 : Shape := ⟨3, ![128, 1, 1]⟩
abbrev S1 : Shape := ⟨1, ![1]⟩

abbrev nBuf : Space → Nat
  | .hbm => 73
  | .vmem => 9
  | .smem => 0
  | _ => 0

abbrev bufTy : (tb : Table) → Fin (tcTables nBuf tb) → BufTy
  | .hbm, ⟨0, _⟩ => ⟨S128x224x224, .f32⟩
  | .hbm, ⟨1, _⟩ => ⟨S128x1000, .f32⟩
  | .hbm, ⟨2, _⟩ => ⟨S128x4x224x224, .f32⟩
  | .hbm, ⟨3, _⟩ => ⟨S128, .i32⟩
  | .hbm, ⟨4, _⟩ => ⟨S128x5x224x224, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x1x128, .f32⟩
  | .hbm, ⟨9, _⟩ => ⟨S2x128, .f32⟩
  | .hbm, ⟨10, _⟩ => ⟨S2x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S2x1, .f32⟩
  | .hbm, ⟨15, _⟩ => ⟨S2, .f32⟩
  | .hbm, ⟨16, _⟩ => ⟨S_, .f32⟩
  | .hbm, ⟨17, _⟩ => ⟨S_, .f32⟩
  | .hbm, ⟨18, _⟩ => ⟨S2x1, .f32⟩
  | .hbm, ⟨19, _⟩ => ⟨S2, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128x1, .f32⟩
  | .hbm, ⟨28, _⟩ => ⟨S128x1000, .f32⟩
  | .hbm, ⟨29, _⟩ => ⟨S128x1000, .f32⟩
  | .hbm, ⟨30, _⟩ => ⟨S128x1000, .f32⟩
  | .hbm, ⟨31, _⟩ => ⟨S_, .f32⟩
  | .hbm, ⟨32, _⟩ => ⟨S128, .f32⟩
  | .hbm, ⟨33, _⟩ => ⟨S128x1, .f32⟩
  | .hbm, ⟨34, _⟩ => ⟨S128x1, .f32⟩
  | .hbm, ⟨35, _⟩ => ⟨S128x1000, .f32⟩
  | .hbm, ⟨36, _⟩ => ⟨S128x1000, .f32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x1, .i32⟩
  | .hbm, ⟨45, _⟩ => ⟨S128x1x1, .i32⟩
  | .hbm, ⟨46, _⟩ => ⟨S1, .i32⟩
  | .hbm, ⟨47, _⟩ => ⟨S_, .i32⟩
  | .hbm, ⟨48, _⟩ => ⟨S128x1x1, .i32⟩
  | .hbm, ⟨49, _⟩ => ⟨S128x1x1, .i1⟩
  | .hbm, ⟨50, _⟩ => ⟨S1x1x1, .i32⟩
  | .hbm, ⟨51, _⟩ => ⟨S128x1x1, .i32⟩
  | .hbm, ⟨52, _⟩ => ⟨S128x1x1, .i1⟩
  | .hbm, ⟨53, _⟩ => ⟨S128x1x1, .i1⟩
  | .hbm, ⟨54, _⟩ => ⟨S_, .i1⟩
  | .hbm, ⟨55, _⟩ => ⟨S128x1, .i1⟩
  | .hbm, ⟨56, _⟩ => ⟨S128x1, .f32⟩
  | .hbm, ⟨57, _⟩ => ⟨S_, .f32⟩
  | .hbm, ⟨58, _⟩ => ⟨S128x1, .f32⟩
  | .hbm, ⟨59, _⟩ => ⟨S128x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S4x224x224, .f32⟩
  | .local _ .vmem, ⟨1, _⟩ => ⟨S4x224x224, .f32⟩
  | .local _ .vmem, ⟨2, _⟩ => ⟨S4x5x224x224, .f32⟩
  | .local _ .vmem, ⟨3, _⟩ => ⟨S4x5x224x224, .f32⟩
  | .local _ .vmem, ⟨4, _⟩ => ⟨S4x4x224x224, .f32⟩
  | .local _ .vmem, ⟨5, _⟩ => ⟨S4x4x224x224, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | _, _ => ⟨S128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v11 : Ref sig .tc := ⟨.hbm, 36, rfl⟩
abbrev main_v12 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v13 : Ref sig .tc := ⟨.hbm, 59, rfl⟩
abbrev main_cst_2 : Ref sig .tc := ⟨.hbm, 60, rfl⟩
abbrev main_v14 : Ref sig .tc := ⟨.hbm, 61, rfl⟩
abbrev main_cst_3 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_4 : Ref sig .tc := ⟨.hbm, 70, rfl⟩
abbrev main_v22 : Ref sig .tc := ⟨.hbm, 71, rfl⟩
abbrev main_v23 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v81 : BitVec 1 := Scalar.cmpi .eq arg1 c15_i32
  let v82 : BitVec 32 := Scalar.extui v81
  let c0_i32_37 : BitVec 32 := 0#32
  let v83 : BitVec 1 := Scalar.cmpi .ne v82 c0_i32_37
  v83

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x5x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S4x224x224_S4x224x224_0_0_0 : ∀ a, (![0, 0, 0] : Fin 3 → Nat) a + S4x224x224.size a ≤ S4x224x224.size a
  h_S4x224x224 : 0 < S4x224x224.numel
  inb_S4x5x224x224_S4x5x224x224_0_0_0_0 : ∀ a, (![0, 0, 0, 0] : Fin 4 → Nat) a + S4x5x224x224.size a ≤ S4x5x224x224.size a
  h_S4x5x224x224 : 0 < S4x5x224x224.numel
  inb_S4x4x224x224_S4x4x224x224_0_0_0_0 : ∀ a, (![0, 0, 0, 0] : Fin 4 → Nat) a + S4x4x224x224.size a ≤ S4x4x224x224.size a
  h_S4x4x224x224 : 0 < S4x4x224x224.numel
  slices_S4x5x224x224_o0_0_0_0_S4x1x224x224 : S4x5x224x224.Slices ![0, 0, 0, 0] S4x1x224x224
  shapeCasts_S4x1x224x224_S4x224x224 : S4x1x224x224.ShapeCasts S4x224x224
  slices_S4x5x224x224_o0_1_0_0_S4x4x224x224 : S4x5x224x224.Slices ![0, 1, 0, 0] S4x4x224x224
  reduces_S4x224x224_S4x224 : S4x224x224.Reduces [2] S4x224
  shapeCasts_S4x224_S4x224x1 : S4x224.ShapeCasts S4x224x1
  reduces_S4x224x1_S4x1 : S4x224x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  inpos_S1x1x1_p0_0_0 : ∀ a, (![0, 0, 0] : Fin 3 → Nat) a < S1x1x1.size a
  reduces_S4x4x224x224_S4x224x224 : S4x4x224x224.Reduces [1] S4x224x224
  iota_S1x1x128_d2_w32 : S1x1x128.Iotas .tc 32 [2]
  natLt_1_32 : 1 < 32
  shapeCasts_S2x1x128_S2x128 : S2x1x128.ShapeCasts S2x128
  slices_S2x128_S2x1_0_0 : S2x128.Slices ![0, 0] S2x1
  shapeCasts_S2x1_S2 : S2x1.ShapeCasts S2
  reducesTo_S2_S_d0 : S2.ReducesTo [0] S_
  h_S_ : 0 < S_.numel
  slices_S2x128_S2x1_0_1 : S2x128.Slices ![0, 1] S2x1
  slices_S2x128_S2x1_0_2 : S2x128.Slices ![0, 2] S2x1
  reducesTo_S128x1000_S128_d1 : S128x1000.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x1000_0_1 : S128x1.BroadcastsInDim S128x1000 (![0, 1] : Fin 2 → Fin S128x1000.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  reducesTo_S128x1_S_d0_1 : S128x1.ReducesTo [0, 1] S_
  gather_S128x1000_S128x1x1_S128x1_n_1_0_0_1_2_11_wf : GatherDims.WF S128x1000 S128x1x1 S128x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x224x224.size a ≤ S128x224x224.size a
  hwx0_0 : ∀ i : grid0.Coords, EltTy.bits .f32 = 32 ∨ (Rect.block (s := S128x224x224) S4x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x5x224x224.size a ≤ S128x5x224x224.size a
  hwx0_1 : ∀ i : grid0.Coords, EltTy.bits .f32 = 32 ∨ (Rect.block (s := S128x5x224x224) S4x5x224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4x224x224.size a ≤ S128x4x224x224.size a
  hwx0_2 : ∀ i : grid0.Coords, EltTy.bits .f32 = 32 ∨ (Rect.block (s := S128x4x224x224) S4x4x224x224.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

def gather_S128x1000_S128x1x1_S128x1_n_1_0_0_1_2_11 : GatherDims S128x1000 S128x1x1 S128x1 where
  offsetDims := []
  collapsedSliceDims := [1]
  operandBatchingDims := [0]
  startIndicesBatchingDims := [0]
  startIndexMap := [1]
  indexVectorDim := 2
  sliceSizes := ![1, 1]
  wf := gather_S128x1000_S128x1x1_S128x1_n_1_0_0_1_2_11_wf

abbrev win0_0 : Pipeline.Window sig grid0 :=
  Pipeline.Window.ofSpec (Memref.whole main_arg0) S4x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x5x224x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x4x224x224.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x224x224 : Shape := ⟨3, ![128, 224, 224]⟩
abbrev S128x1000 : Shape := ⟨2, ![128, 1000]⟩
abbrev S128x4x224x224 : Shape := ⟨4, ![128, 4, 224, 224]⟩
abbrev S128 : Shape := ⟨1, ![128]⟩
abbrev S128x5x224x224 : Shape := ⟨4, ![128, 5, 224, 224]⟩
abbrev S_ : Shape := ⟨0, ![]⟩
abbrev S128x1x224x224 : Shape := ⟨4, ![128, 1, 224, 224]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S128x224x224, .f32⟩
  | .hbm, ⟨1, _⟩ => ⟨S128x1000, .f32⟩
  | .hbm, ⟨2, _⟩ => ⟨S128x4x224x224, .f32⟩
  | .hbm, ⟨3, _⟩ => ⟨S128, .i32⟩
  | .hbm, ⟨4, _⟩ => ⟨S128x5x224x224, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128x1x224x224, .f32⟩
  | .hbm, ⟨9, _⟩ => ⟨S128x224x224, .f32⟩
  | .hbm, ⟨10, _⟩ => ⟨S_, .f32⟩
  | .hbm, ⟨11, _⟩ => ⟨S128x224x224, .f32⟩
  | .hbm, ⟨12, _⟩ => ⟨S128x224x224, .i1⟩
  | .hbm, ⟨13, _⟩ => ⟨S_, .f32⟩
  | .hbm, ⟨14, _⟩ => ⟨S128x224x224, .f32⟩
  | .hbm, ⟨15, _⟩ => ⟨S128x224x224, .i1⟩
  | .hbm, ⟨16, _⟩ => ⟨S128x224x224, .f32⟩
  | .hbm, ⟨17, _⟩ => ⟨S_, .f32⟩
  | .hbm, ⟨18, _⟩ => ⟨S128x224x224, .f32⟩
  | .hbm, ⟨19, _⟩ => ⟨S128x224x224, .f32⟩
  | .hbm, ⟨20, _⟩ => ⟨S128x224x224, .f32⟩
  | .hbm, ⟨21, _⟩ => ⟨S128x224x224, .f32⟩
  | .hbm, ⟨22, _⟩ => ⟨S_, .f32⟩
  | .hbm, ⟨23, _⟩ => ⟨S128x224x224, .f32⟩
  | .hbm, ⟨24, _⟩ => ⟨S128x224x224, .f32⟩
  | .hbm, ⟨25, _⟩ => ⟨S128x224x224, .f32⟩
  | .hbm, ⟨26, _⟩ => ⟨S_, .f32⟩
  | .hbm, ⟨27, _⟩ => ⟨S_, .f32⟩
  | .hbm, ⟨28, _⟩ => ⟨S128x224x224, .f32⟩
  | .hbm, ⟨29, _⟩ => ⟨S128x224x224, .f32⟩
  | .hbm, ⟨30, _⟩ => ⟨S_, .f32⟩
  | .hbm, ⟨31, _⟩ => ⟨S_, .f32⟩
  | .hbm, ⟨32, _⟩ => ⟨S128x224x224, .f32⟩
  | .hbm, ⟨33, _⟩ => ⟨S_, .f32⟩
  | .hbm, ⟨34, _⟩ => ⟨S_, .f32⟩
  | .hbm, ⟨35, _⟩ => ⟨S128x224x224, .f32⟩
  | .hbm, ⟨36, _⟩ => ⟨S128x224x224, .f32⟩
  | .hbm, ⟨37, _⟩ => ⟨S_, .f32⟩
  | .hbm, ⟨38, _⟩ => ⟨S_, .f32⟩
  | .hbm, ⟨39, _⟩ => ⟨S128x4x224x224, .f32⟩
  | .hbm, ⟨40, _⟩ => ⟨S128x4x224x224, .f32⟩
  | .hbm, ⟨41, _⟩ => ⟨S128x4x224x224, .f32⟩
  | .hbm, ⟨42, _⟩ => ⟨S_, .f32⟩
  | .hbm, ⟨43, _⟩ => ⟨S128x224x224, .f32⟩
  | .hbm, ⟨44, _⟩ => ⟨S_, .f32⟩
  | .hbm, ⟨45, _⟩ => ⟨S_, .f32⟩
  | .hbm, ⟨46, _⟩ => ⟨S128x224x224, .f32⟩
  | .hbm, ⟨47, _⟩ => ⟨S128x224x224, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128x1, .f32⟩
  | .hbm, ⟨56, _⟩ => ⟨S128x1000, .f32⟩
  | .hbm, ⟨57, _⟩ => ⟨S128x1000, .f32⟩
  | .hbm, ⟨58, _⟩ => ⟨S128x1000, .f32⟩
  | .hbm, ⟨59, _⟩ => ⟨S_, .f32⟩
  | .hbm, ⟨60, _⟩ => ⟨S128, .f32⟩
  | .hbm, ⟨61, _⟩ => ⟨S128x1, .f32⟩
  | .hbm, ⟨62, _⟩ => ⟨S128x1, .f32⟩
  | .hbm, ⟨63, _⟩ => ⟨S128x1000, .f32⟩
  | .hbm, ⟨64, _⟩ => ⟨S128x1000, .f32⟩
  | .hbm, ⟨65, _⟩ => ⟨S128x1, .i32⟩
  | .hbm, ⟨66, _⟩ => ⟨S_, .i32⟩
  | .hbm, ⟨67, _⟩ => ⟨S128x1, .i32⟩
  | .hbm, ⟨68, _⟩ => ⟨S128x1, .i1⟩
  | .hbm, ⟨69, _⟩ => ⟨S_, .i32⟩
  | .hbm, ⟨70, _⟩ => ⟨S128x1, .i32⟩
  | .hbm, ⟨71, _⟩ => ⟨S128x1, .i32⟩
  | .hbm, ⟨72, _⟩ => ⟨S128x1, .i32⟩
  | .hbm, ⟨73, _⟩ => ⟨S128x1x1, .i32⟩
  | .hbm, ⟨74, _⟩ => ⟨S1, .i32⟩
  | .hbm, ⟨75, _⟩ => ⟨S_, .i32⟩
  | .hbm, ⟨76, _⟩ => ⟨S128x1x1, .i32⟩
  | .hbm, ⟨77, _⟩ => ⟨S128x1x1, .i1⟩
  | .hbm, ⟨78, _⟩ => ⟨S1x1x1, .i32⟩
  | .hbm, ⟨79, _⟩ => ⟨S128x1x1, .i32⟩
  | .hbm, ⟨80, _⟩ => ⟨S128x1x1, .i1⟩
  | .hbm, ⟨81, _⟩ => ⟨S128x1x1, .i1⟩
  | .hbm, ⟨82, _⟩ => ⟨S_, .i1⟩
  | .hbm, ⟨83, _⟩ => ⟨S128x1, .i1⟩
  | .hbm, ⟨84, _⟩ => ⟨S128x1, .f32⟩
  | .hbm, ⟨85, _⟩ => ⟨S_, .f32⟩
  | .hbm, ⟨86, _⟩ => ⟨S128x1, .f32⟩
  | .hbm, ⟨87, _⟩ => ⟨S128x1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_v23 : Ref sig .tc := ⟨.hbm, 47, rfl⟩
abbrev main_cst_9 : Ref sig .tc := ⟨.hbm, 48, rfl⟩
abbrev main_v24 : Ref sig .tc := ⟨.hbm, 49, rfl⟩
abbrev main_call3_cst : Ref sig .tc := ⟨.hbm, 50, rfl⟩
abbrev main_call3_v0 : Ref sig .tc := ⟨.hbm, 51, rfl⟩
abbrev main_call3_cst_0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_cst_1 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_v25 : Ref sig .tc := ⟨.hbm, 64, rfl⟩
abbrev main_v26 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_cst : Ref sig .tc := ⟨.hbm, 85, rfl⟩
abbrev main_call4_v14 : Ref sig .tc := ⟨.hbm, 86, rfl⟩
abbrev main_v27 : Ref sig .tc := ⟨.hbm, 87, rfl⟩
abbrev main_cst_10 : Ref sig .tc := ⟨.hbm, 88, rfl⟩
abbrev main_v28 : Ref sig .tc := ⟨.hbm, 89, rfl⟩
abbrev main_cst_11 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_cst_12 : Ref sig .tc := ⟨.hbm, 98, rfl⟩
abbrev main_v36 : Ref sig .tc := ⟨.hbm, 99, rfl⟩
abbrev main_v37 : Ref sig .tc := ⟨.hbm, 100, rfl⟩

abbrev nD : Nat := 1
abbrev τ : Topo := Topo.v7x

variable {F : FTy → Type} [FloatOps F]

class Facts₀ : Prop where
  slices_S128x5x224x224_S128x1x224x224_0_0_0_0 : S128x5x224x224.Slices ![0, 0, 0, 0] S128x1x224x224
  shapeCasts_S128x1x224x224_S128x224x224 : S128x1x224x224.ShapeCasts S128x224x224
  bcast_S_S128x224x224 : S_.BroadcastsInDim S128x224x224 (![] : Fin 0 → Fin S128x224x224.rank)
  reducesTo_S128x224x224_S_d0_1_2 : S128x224x224.ReducesTo [0, 1, 2] S_
  h_S_ : 0 < S_.numel
  slices_S128x5x224x224_S128x4x224x224_0_1_0_0 : S128x5x224x224.Slices ![0, 1, 0, 0] S128x4x224x224
  reducesTo_S128x4x224x224_S128x224x224_d1 : S128x4x224x224.ReducesTo [1] S128x224x224
  reducesTo_S128x1000_S128_d1 : S128x1000.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x1000_0_1 : S128x1.BroadcastsInDim S128x1000 (![0, 1] : Fin 2 → Fin S128x1000.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  reducesTo_S128x1_S_d0_1 : S128x1.ReducesTo [0, 1] S_
  gather_S128x1000_S128x1x1_S128x1_n_1_0_0_1_2_11_wf : GatherDims.WF S128x1000 S128x1x1 S128x1 [] [1] [0] [1] [0] 2 ![1, 1]

variable [Facts₀]

def gather_S128x1000_S128x1x1_S128x1_n_1_0_0_1_2_11 : GatherDims S128x1000 S128x1x1 S128x1 where
  offsetDims := []
  collapsedSliceDims := [1]
  operandBatchingDims := [0]
  startIndicesBatchingDims := [0]
  startIndexMap := [1]
  indexVectorDim := 2
  sliceSizes := ![1, 1]
  wf := gather_S128x1000_S128x1x1_S128x1_n_1_0_0_1_2_11_wf

class Facts : Prop extends Facts₀ where

variable [Facts]
-- ==== Proof.KPieces.lean ====
import proofs.«161776_j55551107006911_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What one grid point leaves behind. At every point the body adds, into the carried accumulator row, the three masked
    sums of the point's blocks spread over lanes 0, 1, 2; at the first point of a core's run the accumulator is the zero
    row, and at the last point the output block receives the accumulator. -/

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The accumulator row after a point whose blocks are `x0` (objectness), `x1` (targets), `x2` (coordinates), from the
    row `acc` before it. -/
def step (x0 : Vec F S4x224x224 .f32) (x1 : Vec F S4x5x224x224 .f32) (x2 : Vec F S4x4x224x224 .f32)
    (acc : Vec F S1x1x128 .f32) : Vec F S1x1x128 .f32 :=
  k0_pay1 (k0_pay8 x2 (k0_pay4 x1) (k0_pay5 x1) (k0_pay6 x0 x1) (k0_pay7 x0 x1) acc)

/-- A middle point: the carried row becomes `step` of it. -/
theorem sout_B (c : Dev nD) (i : grid0.Coords) (a2 : Memref sig .tc .vmem S4x224x224 .f32) (h2 : a2.IsWhole)
    (a3 : Memref sig .tc .vmem S4x5x224x224 .f32) (h3 : a3.IsWhole) (a4 : Memref sig .tc .vmem S4x4x224x224 .f32) (h4 : a4.IsWhole)
    (a5 : Memref sig .tc .vmem S1x1x128 .f32) (h5 : a5.IsWhole) (a6 : Memref sig .tc .vmem S1x1x128 .f32) (h6 : a6.IsWhole)
    (hc0 : ¬cond0_0 i) (hc1 : ¬cond0_1 i) (x0 : Vec F S4x224x224 .f32) (x1 : Vec F S4x5x224x224 .f32) (x2 : Vec F S4x4x224x224 .f32) (xs0 : Vec F S1x1x128 .f32) :
    sout0_B_0 c i a2 h2 a3 h3 a4 h4 a5 h5 a6 h6 hc0 hc1 x0 x1 x2 xs0 = step x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz3]
  simp only [View.readAt_eq_ld, h2.read_unread, h3.read_unread, h4.read_unread, h6.read_unread,
    View.ld_unit_zero (S := S4x224x224) hz3, View.ld_unit_zero (S := S4x5x224x224) hz4, View.ld_unit_zero (S := S4x4x224x224) hz4,
    View.ld_unit_zero (S := S1x1x128) hz3]
  rfl

/-- A last point: the carried row becomes `step` of it, -/
theorem sout_C (c : Dev nD) (i : grid0.Coords) (a2 : Memref sig .tc .vmem S4x224x224 .f32) (h2 : a2.IsWhole)
    (a3 : Memref sig .tc .vmem S4x5x224x224 .f32) (h3 : a3.IsWhole) (a4 : Memref sig .tc .vmem S4x4x224x224 .f32) (h4 : a4.IsWhole)
    (a5 : Memref sig .tc .vmem S1x1x128 .f32) (h5 : a5.IsWhole) (a6 : Memref sig .tc .vmem S1x1x128 .f32) (h6 : a6.IsWhole)
    (hc0 : ¬cond0_0 i) (hc1 : cond0_1 i) (x0 : Vec F S4x224x224 .f32) (x1 : Vec F S4x5x224x224 .f32) (x2 : Vec F S4x4x224x224 .f32) (xs0 : Vec F S1x1x128 .f32) :
    sout0_C_0 c i a2 h2 a3 h3 a4 h4 a5 h5 a6 h6 hc0 hc1 x0 x1 x2 xs0 = step x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words

  rw [View.canon_unit_zero hz3]
  simp only [View.readAt_eq_ld, h2.read_unread, h3.read_unread, h4.read_unread, h6.read_unread,
    View.ld_unit_zero (S := S4x224x224) hz3, View.ld_unit_zero (S := S4x5x224x224) hz4, View.ld_unit_zero (S := S4x4x224x224) hz4,
    View.ld_unit_zero (S := S1x1x128) hz3]
  rfl

/-- and the output block receives the same row. -/
theorem out_C (c : Dev nD) (i : grid0.Coords) (a2 : Memref sig .tc .vmem S4x224x224 .f32) (h2 : a2.IsWhole)
    (a3 : Memref sig .tc .vmem S4x5x224x224 .f32) (h3 : a3.IsWhole) (a4 : Memref sig .tc .vmem S4x4x224x224 .f32) (h4 : a4.IsWhole)
    (a5 : Memref sig .tc .vmem S1x1x128 .f32) (h5 : a5.IsWhole) (a6 : Memref sig .tc .vmem S1x1x128 .f32) (h6 : a6.IsWhole)
    (hc0 : ¬cond0_0 i) (hc1 : cond0_1 i) (x0 : Vec F S4x224x224 .f32) (x1 : Vec F S4x5x224x224 .f32) (x2 : Vec F S4x4x224x224 .f32) (xs0 : Vec F S1x1x128 .f32) :
    out0_C_3 c i a2 h2 a3 h3 a4 h4 a5 h5 a6 h6 hc0 hc1 x0 x1 x2 xs0 = step x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words

  rw [View.canon_unit_zero hz3]
  simp only [View.readAt_eq_ld, h2.read_unread, h3.read_unread, h4.read_unread, h6.read_unread,
    View.ld_unit_zero (S := S4x224x224) hz3, View.ld_unit_zero (S := S4x5x224x224) hz4, View.ld_unit_zero (S := S4x4x224x224) hz4,
    View.ld_unit_zero (S := S1x1x128) hz3]
  rw [View.readCov_unit_zero (S := S1x1x128) _ hz3]
  rfl

/-- A first point: the row is reset to zeros and then becomes `step` of the zero row. -/
theorem sout_A (c : Dev nD) (i : grid0.Coords) (a2 : Memref sig .tc .vmem S4x224x224 .f32) (h2 : a2.IsWhole)
    (a3 : Memref sig .tc .vmem S4x5x224x224 .f32) (h3 : a3.IsWhole) (a4 : Memref sig .tc .vmem S4x4x224x224 .f32) (h4 : a4.IsWhole)
    (a5 : Memref sig .tc .vmem S1x1x128 .f32) (h5 : a5.IsWhole) (a6 : Memref sig .tc .vmem S1x1x128 .f32) (h6 : a6.IsWhole)
    (hc0 : cond0_0 i) (hc1 : ¬cond0_1 i) (x0 : Vec F S4x224x224 .f32) (x1 : Vec F S4x5x224x224 .f32) (x2 : Vec F S4x4x224x224 .f32) :
    sout0_A_0 c i a2 h2 a3 h3 a4 h4 a5 h5 a6 h6 hc0 hc1 x0 x1 x2 = step x0 x1 x2 k0_pay2 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words

  rw [View.canon_cons_unit_zero (S := S1x1x128) hz3]
  simp only [View.readAt_eq_ld, h2.read_unread, h3.read_unread, h4.read_unread, h6.read_unread,
    View.ld_unit_zero (S := S4x224x224) hz3, View.ld_unit_zero (S := S4x5x224x224) hz4, View.ld_unit_zero (S := S4x4x224x224) hz4,
    View.ld_unit_zero (S := S1x1x128) hz3]
  rw [View.readCov_unit_zero (S := S1x1x128) _ hz3]
  rfl

end Cert.KernelIdeal.Pieces

end
-- ==== Proof.LibTotals.lean ====
/-
  GENERAL lemmas on totals (extended reals, or any additive commutative monoid: no finiteness anywhere).

  * A float add-reduction over any set of axes keeps the total: the sum of the reduced array's entries is the sum of
    the source's entries. A shape cast keeps the total. An array whose axes all have extent one holds its total at
    its one index.
  * A sum over the index set of a rank-3 array is the triple sum over its coordinates.
  * A sum over Q blocks of P consecutive naturals is the sum over the first Q * P naturals.
  * An accumulator that is reset every P steps: if it starts a run of P steps at 0 + p and adds p at every other step,
    then r steps into run q it holds the sum of p over the run so far.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LibTotals

open Idealize.ShloMosaic Idealize.ShloMosaic.ValueIdx

/-- The entries of a float add-reduction sum to the total of the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- The entries of a shape cast sum to the total of the source. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An array whose axes all have extent one: the total is its one entry. -/
theorem sum_of_unit {s : Shape} {M : Type*} [AddCommMonoid M] (hs : ∀ a, s.size a = 1) (x : s.Idx → M) (i0 : s.Idx) :
    ∑ i : s.Idx, x i = x i0 :=
  Fintype.sum_eq_single i0 fun i hi => absurd (funext fun a => Fin.ext (by
    have h1 := (i a).isLt; have h2 := (i0 a).isLt; have := hs a; omega)) hi

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Q blocks of P consecutive naturals are the first Q * P naturals. -/
theorem sum_blocks_nat {M : Type*} [AddCommMonoid M] (Q P : ℕ) (f : ℕ → M) :
    ∑ q : Fin Q, ∑ k : Fin P, f (k.val + P * q.val) = ∑ j : Fin (Q * P), f j.val := by
  rw [← (finProdFinEquiv (m := Q) (n := P)).sum_comp (fun j => f j.val), Fintype.sum_prod_type]
  rfl

/-- The accumulator that restarts every P steps (steps below N only): r steps into run q it is the sum of that run's
    first r + 1 terms. -/
theorem restart_acc {M : Type*} [AddCommMonoid M] (P N : ℕ) (p acc : ℕ → M)
    (h0 : 0 < N → acc 0 = 0 + p 0)
    (hr : ∀ n, n + 1 < N → (n + 1) % P = 0 → acc (n + 1) = 0 + p (n + 1))
    (hs : ∀ n, n + 1 < N → (n + 1) % P ≠ 0 → acc (n + 1) = acc n + p (n + 1)) :
    ∀ q r, r < P → P * q + r < N → acc (P * q + r) = ∑ k ∈ Finset.range (r + 1), p (P * q + k) := by
  intro q r
  induction r with
  | zero =>
    intro hP hN
    rw [Finset.sum_range_one, Nat.add_zero]
    cases q with
    | zero => rw [Nat.mul_zero, h0 hN, zero_add]
    | succ q =>
      obtain ⟨n, hn⟩ : ∃ n, P * (q + 1) = n + 1 := ⟨P * (q + 1) - 1, by
        have : 0 < P * (q + 1) := Nat.mul_pos hP (Nat.succ_pos q); omega⟩
      rw [hn] at hN ⊢
      rw [hr n hN (by rw [← hn]; exact Nat.mul_mod_right P (q + 1)), zero_add]
  | succ r ih =>
    intro hP hN
    have hmod : (P * q + r + 1) % P ≠ 0 := by
      rw [Nat.add_assoc, Nat.mul_add_mod, Nat.mod_eq_of_lt hP]; exact Nat.succ_ne_zero r
    rw [← Nat.add_assoc] at hN ⊢
    rw [hs _ hN hmod, ih (by omega) (by omega), Finset.sum_range_succ _ (r + 1), Nat.add_assoc]

end Cert.LibTotals

end
-- ==== Proof.KStep.lean ====
import proofs.«161776_j55551107006911_2_alg».proof.Proof.KPieces
import proofs.«161776_j55551107006911_2_alg».proof.Proof.LibTotals
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

/-! The accumulator row after one point, read at lanes 0, 1 and 2 over the extended reals: lane k gains the total, over
    the point's 4 x 224 x 224 cells, of the k-th masked term (no-object log term, object log term, squared coordinate
    error). The body reduces one axis at a time and multiplies each total into a one-hot lane pattern; a reduction keeps
    the total, and a total times one or zero is itself or zero at every extended real. -/

open scoped BigOperators

namespace Cert.KernelIdeal.StepValue

open Cert.KernelIdeal Cert.KernelIdeal.Gen Cert.KernelIdeal.Pieces Cert.LibTotals Idealize.ShloMosaic.ValueIdx

variable {F : FTy → Type} [FloatOps F]

/-- The no-object term over a block: where the target's channel 0 is 0, minus the clamped log(1 - p); else 0. -/
def noobjBlk (x0 : Vec F S4x224x224 .f32) (x1 : Vec F S4x5x224x224 .f32) : FVec F S4x224x224 .f32 :=
  select (cmpf .oeq (k0_pay3 x1) (broadcast S4x224x224 (Scalar.ofBits .f32 0x00000000#32)))
    (subf (broadcast S4x224x224 (Scalar.ofBits .f32 0x00000000#32))
      (maximumf (log1p (subf (broadcast S4x224x224 (Scalar.ofBits .f32 0x00000000#32)) x0))
        (broadcast S4x224x224 (Scalar.ofBits .f32 0xC2C80000#32))))
    (broadcast S4x224x224 (Scalar.ofBits .f32 0x00000000#32))

/-- The coordinate term over a block: where the target's channel 0 is 1, the sum over the four coordinate channels of
    the squared difference; else 0. -/
def coorBlk (x1 : Vec F S4x5x224x224 .f32) (x2 : Vec F S4x4x224x224 .f32) : FVec F S4x224x224 .f32 :=
  select (k0_pay5 x1)
    (multiReduction .add [1] S4x224x224 (mulf (subf x2 (k0_pay4 x1)) (subf x2 (k0_pay4 x1))) 0x00000000#32
      reduces_S4x4x224x224_S4x224x224 (.inl rfl) rfl)
    (broadcast S4x224x224 (Scalar.ofBits .f32 0x00000000#32))

/-- A block reduced to one number the way the body does it: lanes, then rows, then the batch axis. -/
def tot (v : FVec F S4x224x224 .f32) : F .f32 :=
  extractAt ![0, 0, 0]
    (shapeCast S1x1x1
      (multiReduction .add [0] S1x1
        (shapeCast S4x1x1
          (multiReduction .add [1] S4x1
            (shapeCast S4x224x1
              (multiReduction .add [2] S4x224 v 0x00000000#32 reduces_S4x224x224_S4x224 (.inl rfl) rfl)
              shapeCasts_S4x224_S4x224x1)
            0x00000000#32 reduces_S4x224x1_S4x1 (.inl rfl) rfl)
          shapeCasts_S4x1_S4x1x1)
        0x00000000#32 reduces_S4x1x1_S1x1 (.inl rfl) rfl)
      shapeCasts_S1x1_S1x1x1)
    inpos_S1x1x1_p0_0_0

/-- The lane pattern that is 1 at lane k and 0 elsewhere. -/
def onehot (k : BitVec 32) : FVec F S1x1x128 .f32 :=
  sitofp .f32 (extui 32 (cmpi .eq (iota .tc S1x1x128 32 [2] iota_S1x1x128_d2_w32) (broadcast S1x1x128 k)) natLt_1_32)

/-- One point's update of the accumulator row. -/
theorem step_eq (x0 : Vec F S4x224x224 .f32) (x1 : Vec F S4x5x224x224 .f32) (x2 : Vec F S4x4x224x224 .f32)
    (acc : Vec F S1x1x128 .f32) :
    step x0 x1 x2 acc
      = addf acc (addf (addf (mulf (broadcast S1x1x128 (tot (noobjBlk x0 x1))) (onehot 0#32))
          (mulf (broadcast S1x1x128 (tot (k0_pay6 x0 x1))) (onehot 1#32)))
          (mulf (broadcast S1x1x128 (tot (coorBlk x1 x2))) (onehot 2#32))) := by
  unfold step k0_pay1
  rw [shapeCast_self]
  rfl

/-- Over the extended reals the body's reduction of a block is the block's total. -/
theorem tot_eq (v : FVec Ideal S4x224x224 .f32) : tot v = ∑ i, v i := by
  unfold tot extractAt
  refine (sum_of_unit (s := S1x1x1) (fun a => by fin_cases a <;> rfl) _ _).symm.trans ?_
  refine (sum_shapeCast _ _).trans ?_
  refine (sum_multiReduction_add _ _ _ _ _).trans ?_
  refine (sum_shapeCast _ _).trans ?_
  refine (sum_multiReduction_add _ _ _ _ _).trans ?_
  refine (sum_shapeCast _ _).trans ?_
  exact sum_multiReduction_add _ _ _ _ _

/-- The one-hot pattern at a lane. -/
theorem onehot_apply (k : BitVec 32) (l : Fin 128) :
    onehot (F := Ideal) k (ix3 0 0 l) = if BitVec.ofNat 32 l.val = k then 1 else 0 := by
  unfold onehot
  rw [sitofp_apply, extui_apply]
  show FloatOps.sitofp .f32 ((Scalar.cmpi .eq (iota .tc S1x1x128 32 [2] iota_S1x1x128_d2_w32 (ix3 0 0 l)) k).setWidth 32) = _
  rw [iota_single_apply]
  show ((((Scalar.cmpi .eq (BitVec.ofNat 32 l.val) k).setWidth 32).toInt : ℝ) : EReal) = _
  by_cases h : BitVec.ofNat 32 l.val = k
  · have e : Scalar.cmpi .eq (BitVec.ofNat 32 l.val) k = 1#1 := (Idealize.ShloMosaic.IntOp.cmpi_eq).mpr h
    rw [if_pos h, e]
    norm_num
  · rw [if_neg h]
    have e : Scalar.cmpi .eq (BitVec.ofNat 32 l.val) k = 0#1 :=
      eq_zero_of_ne_one fun h1 => h ((Idealize.ShloMosaic.IntOp.cmpi_eq).mp h1)
    rw [e]
    norm_num

/-- The three masked totals of a point's blocks. -/
def partOf (l : Fin 3) (x0 : Vec Ideal S4x224x224 .f32) (x1 : Vec Ideal S4x5x224x224 .f32)
    (x2 : Vec Ideal S4x4x224x224 .f32) : EReal :=
  match l with
  | 0 => ∑ i, noobjBlk x0 x1 i
  | 1 => ∑ i, k0_pay6 x0 x1 i
  | 2 => ∑ i, coorBlk x1 x2 i

/-- Lane l of the accumulator row, l = 0, 1, 2. -/
abbrev lane (l : Fin 3) : S1x1x128.Idx := ix3 0 0 ⟨l.val, by have := l.isLt; omega⟩

/-- One point adds the l-th masked total to lane l: at lane l the one-hot factors are 1 for the l-th total and 0 for the
    other two, and x * 1 = x, x * 0 = 0 at every extended real. -/
theorem step_lane (l : Fin 3) (x0 : Vec Ideal S4x224x224 .f32) (x1 : Vec Ideal S4x5x224x224 .f32)
    (x2 : Vec Ideal S4x4x224x224 .f32) (acc : Vec Ideal S1x1x128 .f32) :
    step x0 x1 x2 acc (lane l) = acc (lane l) + partOf l x0 x1 x2 := by
  rw [step_eq]
  simp only [addf_apply, mulf_apply, broadcast_apply, lane, onehot_apply, tot_eq]
  fin_cases l
  · rw [if_pos (by decide), if_neg (by decide), if_neg (by decide), mul_one, mul_zero, mul_zero, add_zero, add_zero]
    rfl
  · rw [if_neg (by decide), if_pos (by decide), if_neg (by decide), mul_one, mul_zero, mul_zero, zero_add, add_zero]
    rfl
  · rw [if_neg (by decide), if_neg (by decide), if_pos (by decide), mul_one, mul_zero, mul_zero, zero_add, zero_add]
    rfl

/-- The row a core's run starts from is the zero row. -/
theorem zero_row (j : S1x1x128.Idx) : k0_pay2 (F := Ideal) j = 0 := by
  unfold k0_pay2
  rw [shapeCast_self]
  exact Ideal.ofBits_zero_f32

end Cert.KernelIdeal.StepValue

end
-- ==== Proof.KChain.lean ====
import proofs.«161776_j55551107006911_2_alg».proof.Proof.KStep

noncomputable section

open Idealize.ShloMosaic Idealize.ShloMosaic.TcCoe Idealize.SL.Sem
open Idealize.ShloMosaic.Pipeline (Dat)

/-! The carried accumulator row along the grid. Its lanes 0, 1, 2 restart at every sixteenth point (the first point of a
    core's run) and gain the point's three masked totals at every point, so at the last point of run q lane l holds the
    sum of the l-th totals of the run's sixteen points; that row is what the output block of run q receives. -/

open scoped BigOperators

namespace Cert.KernelIdeal.Chain

open Cert.KernelIdeal Cert.KernelIdeal.Gen Cert.KernelIdeal.Pieces Cert.KernelIdeal.StepValue Cert.LibTotals
open Idealize.ShloMosaic.ValueIdx

variable (m : (ℓ : Loc nD τ sig) → Buf (Elt Ideal) ℓ)

/-- The l-th masked total of point t's blocks. -/
def part (c : Dev nD) (l : Fin 3) (t : Fin cfg0.N) : EReal :=
  partOf l (iblk m c 0 t) (iblk m c 1 t) (iblk m c 2 t)

/-- The same along the naturals (0 past the grid). -/
def pN (c : Dev nD) (l : Fin 3) (n : ℕ) : EReal := if h : n < cfg0.N then part m c l ⟨n, h⟩ else 0

/-- Lane l of the carried row after point n (0 past the grid). -/
def accN (c : Dev nD) (l : Fin 3) (n : ℕ) : EReal := if h : n < cfg0.N then (outsAt0 m c n h).2 (lane l) else 0

/-- A first point of a run: the lane restarts at 0 plus the point's total. -/
theorem acc_first (c : Dev nD) (l : Fin 3) (t : Fin cfg0.N) (h0 : t.val % 16 = 0) :
    (outsAt0 m c t.val t.isLt).2 (lane l) = 0 + part m c l t := by
  have h1 : ¬ t.val % 16 = 15 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (lane l)).trans ?_
  refine (step_lane l (iblk m c 0 t) (iblk m c 1 t) (iblk m c 2 t) (k0_pay2 (F := Ideal))).trans ?_
  rw [zero_row]
  rfl

/-- Any other point: the lane gains the point's total. -/
theorem acc_next (c : Dev nD) (l : Fin 3) (t : Fin cfg0.N) (h0 : ¬ t.val % 16 = 0) :
    (outsAt0 m c t.val t.isLt).2 (lane l)
      = (outsAt0 m c (t.val - 1) (Nat.lt_of_le_of_lt (Nat.sub_le _ _) t.isLt)).2 (lane l) + part m c l t := by
  by_cases h1 : t.val % 16 = 15
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (lane l)).trans ?_
    exact step_lane l (iblk m c 0 t) (iblk m c 1 t) (iblk m c 2 t) _
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (lane l)).trans ?_
    exact step_lane l (iblk m c 0 t) (iblk m c 1 t) (iblk m c 2 t) _

/-- At a last point of a run the output block receives the carried row. -/
theorem out_last (c : Dev nD) (t : Fin cfg0.N) (h1 : t.val % 16 = 15) :
    (outsAt0 m c t.val t.isLt).1 = (outsAt0 m c t.val t.isLt).2 := by
  have h0 : ¬ t.val % 16 = 0 := by omega
  rw [outsAt0_C m c t h0 h1]
  dsimp only
  refine (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).trans ?_
  exact (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).symm

/-- r steps into run q, lane l of the carried row is the sum of the run's totals so far. -/
theorem acc_run (c : Dev nD) (l : Fin 3) (q r : ℕ) (hr : r < 16) (hN : 16 * q + r < cfg0.N) :
    accN m c l (16 * q + r) = ∑ k ∈ Finset.range (r + 1), pN m c l (16 * q + k) := by
  refine restart_acc 16 cfg0.N (pN m c l) (accN m c l) ?_ ?_ ?_ q r hr hN
  · intro hpos
    unfold accN pN
    rw [dif_pos hpos, dif_pos hpos]
    exact acc_first m c l ⟨0, hpos⟩ (Nat.zero_mod _)
  · intro n hn hmod
    unfold accN pN
    rw [dif_pos hn, dif_pos hn]
    exact acc_first m c l ⟨n + 1, hn⟩ hmod
  · intro n hn hmod
    unfold accN pN
    rw [dif_pos hn, dif_pos hn, dif_pos (Nat.lt_of_succ_lt hn)]
    exact acc_next m c l ⟨n + 1, hn⟩ hmod

/-- Lane l of what the output block of run q receives: the sum of the l-th totals of the run's sixteen points. -/
theorem out_lane (c : Dev nD) (l : Fin 3) (q : Fin 2) (h : 16 * q.val + 15 < cfg0.N) :
    (outsAt0 m c (16 * q.val + 15) h).1 (lane l) = ∑ k : Fin 16, pN m c l (k.val + 16 * q.val) := by
  have e := acc_run m c l q.val 15 (by decide) h
  unfold accN at e
  rw [dif_pos h] at e
  rw [out_last m c ⟨16 * q.val + 15, h⟩ (by show (16 * q.val + 15) % 16 = 15; omega), e,
    Fin.sum_univ_eq_sum_range (fun k => pN m c l (k + 16 * q.val)) 16]
  exact Finset.sum_congr rfl fun k _ => by rw [Nat.add_comm]

/-- The two runs together: the sum over all thirty-two points. -/
theorem out_lanes_sum (c : Dev nD) (l : Fin 3) (f : Fin 2 → EReal)
    (hf : ∀ q : Fin 2, ∀ h : 16 * q.val + 15 < cfg0.N, f q = (outsAt0 m c (16 * q.val + 15) h).1 (lane l)) :
    ∑ q : Fin 2, f q = ∑ t : Fin cfg0.N, part m c l t := by
  have hN : cfg0.N = 32 := N_0
  have e1 : ∀ q : Fin 2, f q = ∑ k : Fin 16, pN m c l (k.val + 16 * q.val) := fun q => by
    have h : 16 * q.val + 15 < cfg0.N := by have := q.isLt; omega
    rw [hf q h, out_lane m c l q h]
  rw [Fintype.sum_congr _ _ e1, sum_blocks_nat 2 16 (pN m c l)]
  refine Fintype.sum_equiv (finCongr (by omega)) _ _ fun j => ?_
  unfold pN
  rw [dif_pos (by have := j.isLt; omega)]
  rfl

end Cert.KernelIdeal.Chain

end
-- ==== Proof.KOut.lean ====
import proofs.«161776_j55551107006911_2_alg».proof.Proof.KChain

noncomputable section

open Idealize.ShloMosaic Idealize.ShloMosaic.TcCoe Idealize.SL.Sem
open Idealize.ShloMosaic.Pipeline (Dat)

/-! The kernel's result array, two rows of 128 lanes: row q is written back once, after the last point of run q, with the
    carried row, so its lanes 0, 1, 2 are the run's three totals. -/

open scoped BigOperators

namespace Cert.KernelIdeal.OutValue

open Cert.KernelIdeal Cert.KernelIdeal.Gen Cert.KernelIdeal.StepValue Cert.KernelIdeal.Chain
open Idealize.ShloMosaic.ValueIdx

variable (m : (ℓ : Loc nD τ sig) → Buf (Elt Ideal) ℓ)

/-- The last point of run q is a point of the grid. -/
theorem last_lt (q : ℕ) (hq : q < 2) : 16 * q + 15 < cfg0.N := by
  have hN : cfg0.N = 32 := N_0
  omega

/-- The result array: row q holds what the output block receives at the last point of run q. -/
def outArr (c : Dev nD) : S2x1x128.Idx → EReal := fun i =>
  (outsAt0 m c (16 * (i 0).val + 15) (last_lt (i 0).val (i 0).isLt)).1 (ix3 0 0 (i 2))

/-- The staging contents after a point depend on the point only. -/
theorem outsAt0_congr (c : Dev nD) {n n' : ℕ} (e : n = n') (h : n < cfg0.N) (h' : n' < cfg0.N) :
    outsAt0 m c n h = outsAt0 m c n' h' := by
  subst e; rfl

/-- The output window's block index at a point: row (point / 16), nothing else moves. -/
theorem idx_facts : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- What a last point writes back is its row of the result array. -/
theorem flushed_eq (c : Dev nD) (t : Fin cfg0.N) (hf : (cfg0.win 3).flush t = true) :
    (dats m 0 c).flushed 3 t = ((cfg0.win 3).blk t).view.read (Elt Ideal) (outArr m c) := by
  have h15 : t.val % 16 = 15 := (flush0_3 t).mp hf
  obtain ⟨e0, e1, e2⟩ := idx_facts t
  show (cfg0.win 3).cut (grid0.coords t) ((dats m 0 c).after 3 t) = _
  rw [after0_3]
  funext y
  show (outsAt0 m c t.val t.isLt).1 y = outArr m c (((cfg0.win 3).blk t).view.emb y)
  unfold outArr
  have hy0 : (y 0).val < 1 := (y 0).isLt
  have hy1 : (y 1).val < 1 := (y 1).isLt
  have ht : 16 * ((((cfg0.win 3).blk t).view.emb y) 0).val + 15 = t.val := by
    show 16 * (win0_3.index t (0 : Fin 3) * 1 + 1 * (y 0).val) + 15 = t.val
    omega
  rw [outsAt0_congr m c ht _ t.isLt]
  refine congrArg _ (funext fun a => Fin.ext ?_)
  match a with
  | ⟨0, _⟩ => show (y 0).val = 0; omega
  | ⟨1, _⟩ => show (y 1).val = 0; omega
  | ⟨2, _⟩ => show (y 2).val = win0_3.index t (2 : Fin 3) * 128 + 1 * (y 2).val; omega

/-- Every entry of the result array is in the block of its row's last point. -/
theorem cover (c : Dev nD) (i : S2x1x128.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 128 := (i 2).isLt
  refine ⟨⟨16 * (i 0).val + 15, last_lt _ hi0⟩, (flush0_3 _).mpr (by show (16 * (i 0).val + 15) % 16 = 15; omega), ?_⟩
  obtain ⟨e0, e1, e2⟩ := idx_facts ⟨16 * (i 0).val + 15, last_lt _ hi0⟩
  have e0' : win0_3.index ⟨16 * (i 0).val + 15, last_lt _ hi0⟩ (0 : Fin 3) = (i 0).val := by
    rw [e0]; show (16 * (i 0).val + 15) / 16 = (i 0).val; omega
  show i ∈ ((View.whole main_v0).slice (win0_3.rect ⟨16 * (i 0).val + 15, last_lt _ hi0⟩)).set
  rw [View.set_slice_whole, Rect.mem_set_unit]
  intro a
  match a with
  | ⟨0, _⟩ =>
    show win0_3.index ⟨16 * (i 0).val + 15, last_lt _ hi0⟩ (0 : Fin 3) * 1 ≤ (i 0).val
      ∧ (i 0).val < win0_3.index ⟨16 * (i 0).val + 15, last_lt _ hi0⟩ (0 : Fin 3) * 1 + 1
    omega
  | ⟨1, _⟩ =>
    show win0_3.index ⟨16 * (i 0).val + 15, last_lt _ hi0⟩ (1 : Fin 3) * 1 ≤ (i 1).val
      ∧ (i 1).val < win0_3.index ⟨16 * (i 0).val + 15, last_lt _ hi0⟩ (1 : Fin 3) * 1 + 1
    omega
  | ⟨2, _⟩ =>
    show win0_3.index ⟨16 * (i 0).val + 15, last_lt _ hi0⟩ (2 : Fin 3) * 128 ≤ (i 2).val
      ∧ (i 2).val < win0_3.index ⟨16 * (i 0).val + 15, last_lt _ hi0⟩ (2 : Fin 3) * 128 + 128
    omega

/-- The result array after the run. -/
theorem final (c : Dev nD) : (dats m 0 c).arrAt 3 cfg0.N = outArr m c :=
  (dats m 0 c).arrAt_eq_of_cover 3 (outArr m c) (flushed_eq m c) (cover c)

/-- Lanes 0, 1, 2 of the two rows sum to the totals over the whole grid. -/
theorem rows_sum (c : Dev nD) (l : Fin 3) :
    ∑ q : Fin 2, outArr m c (ix3 q 0 ⟨l.val, by have := l.isLt; omega⟩) = ∑ t : Fin cfg0.N, part m c l t :=
  out_lanes_sum m c l _ fun q h => rfl

end Cert.KernelIdeal.OutValue

end
-- ==== Proof.LibTypedRefs.lean ====
/-
  GENERAL lemma on typed buffer references (the references a module-local function's operations are stated over): contents
  stored through a typed reference and read back through the same reference are the contents. Storing transports the
  contents along the reference's type equation and reading transports them back.
-/
import Idealize.ShloMosaic.Lib.StableHlo

namespace Cert.LibTypedRefs

open Idealize.ShloMosaic Idealize.ShloMosaic.StableHlo

/-- Contents stored through a typed reference and read back through it are the contents. -/
theorem ofBuf_toBuf {sg : RefSig} {Val : EltTy → Type} {T : BufTy} (x : TRef sg T) (v : T.Contents Val) :
    x.ofBuf (x.toBuf v) = v := by
  obtain ⟨r, rfl, _, _⟩ := x
  rfl

end Cert.LibTypedRefs
-- ==== Proof.KTail.lean ====
import proofs.«161776_j55551107006911_2_alg».proof.Proof.KOut
import Idealize.ShloMosaic.Lib.StableHlo.Run
import Idealize.ShloMosaic.Lib.Pipeline.FrameSuffix
import proofs.«161776_j55551107006911_2_alg».proof.Proof.LibTypedRefs

noncomputable section

open Idealize.ShloMosaic Idealize.ShloMosaic.TcCoe Idealize.SL.Sem
open Idealize.ShloMosaic.Pipeline (Dat)

/-! The host operations after the kernel: from the two-row result array they take the sums of lanes 0, 1 and 2 over the
    rows, compute the mean classification cross entropy from the scores and labels, and combine the four numbers with the
    three scalar weights. -/

namespace Cert.KernelIdeal.TailValue

open Cert.KernelIdeal Cert.KernelIdeal.Gen Idealize.ShloMosaic.StableHlo

variable {F : FTy → Type} [FloatOps F]

/-- The classification term: the sum over the batch of the log-softmax score at the label (an out-of-range label reads the
    junk word), before the division by the batch size. -/
def cls (x1 : (⟨S128x1000, .f32⟩ : BufTy).Contents (Elt F)) (x3 : (⟨S128, .i32⟩ : BufTy).Contents (Elt F)) : (⟨S_, .f32⟩ : BufTy).Contents (Elt F) :=
  Host.reduceAdd (select (Host.reduce IntOp.andi (andi (cmpi .sge (shapeCast _ (select (cmpi .slt (broadcastInDim S128x1 ![0] bcast_S128_S128x1_0 x3) (broadcastInDim S128x1 ![] bcast_S_S128x1 (constantI S_ 32 0#32))) (addi (broadcastInDim S128x1 ![0] bcast_S128_S128x1_0 x3) (broadcastInDim S128x1 ![] bcast_S_S128x1 (constantI S_ 32 1000#32))) (broadcastInDim S128x1 ![0] bcast_S128_S128x1_0 x3)) shapeCasts_S128x1_S128x1x1) (broadcastInDim S128x1x1 ![] bcast_S_S128x1x1 (constantI S_ 32 0#32))) (cmpi .sle (shapeCast _ (select (cmpi .slt (broadcastInDim S128x1 ![0] bcast_S128_S128x1_0 x3) (broadcastInDim S128x1 ![] bcast_S_S128x1 (constantI S_ 32 0#32))) (addi (broadcastInDim S128x1 ![0] bcast_S128_S128x1_0 x3) (broadcastInDim S128x1 ![] bcast_S_S128x1 (constantI S_ 32 1000#32))) (broadcastInDim S128x1 ![0] bcast_S128_S128x1_0 x3)) shapeCasts_S128x1_S128x1x1) (broadcastInDim S128x1x1 ![0, 1, 2] bcast_S1x1x1_S128x1x1_0_1_2 (broadcastInDim S1x1x1 ![2] bcast_S1_S1x1x1_2 (constantI S1 32 999#32))))) (constantI S_ 1 1#1) reducesTo_S128x1x1_S128x1_d2 h_S_) (Host.gather gather_S128x1000_S128x1x1_S128x1_n_1_0_0_1_2_11 (subf (subf x1 (broadcastInDim S128x1000 ![0, 1] bcast_S128x1_S128x1000_0_1 (broadcastInDim S128x1 ![0] bcast_S128_S128x1_0 (maximumf (broadcastInDim S128 ![] bcast_S_S128 (constant S_ .f32 0xFF800000#32)) (Host.reduce FloatOps.maximumf x1 (constant S_ .f32 0xFF800000#32) reducesTo_S128x1000_S128_d1 h_S_))))) (broadcastInDim S128x1000 ![0, 1] bcast_S128x1_S128x1000_0_1 (Host.log (broadcastInDim S128x1 ![0] bcast_S128_S128x1_0 (Host.reduceAdd (Host.exp (subf x1 (broadcastInDim S128x1000 ![0, 1] bcast_S128x1_S128x1000_0_1 (broadcastInDim S128x1 ![0] bcast_S128_S128x1_0 (maximumf (broadcastInDim S128 ![] bcast_S_S128 (constant S_ .f32 0xFF800000#32)) (Host.reduce FloatOps.maximumf x1 (constant S_ .f32 0xFF800000#32) reducesTo_S128x1000_S128_d1 h_S_)))))) (constant S_ .f32 0x00000000#32) reducesTo_S128x1000_S128_d1 h_S_))))) (shapeCast _ (select (cmpi .slt (broadcastInDim S128x1 ![0] bcast_S128_S128x1_0 x3) (broadcastInDim S128x1 ![] bcast_S_S128x1 (constantI S_ 32 0#32))) (addi (broadcastInDim S128x1 ![0] bcast_S128_S128x1_0 x3) (broadcastInDim S128x1 ![] bcast_S_S128x1 (constantI S_ 32 1000#32))) (broadcastInDim S128x1 ![0] bcast_S128_S128x1_0 x3)) shapeCasts_S128x1_S128x1x1)) (broadcastInDim S128x1 ![] bcast_S_S128x1 (constant S_ .f32 0x7FC00000#32))) (constant S_ .f32 0x00000000#32) reducesTo_S128x1_S_d0_1 h_S_

/-- The sum over the two rows of lane k of the result array, as the host takes it: a column slice and a sum from zero. -/
def laneSum (off : Fin 2 → Nat) (hs : S2x128.Slices off S2x1) (out : (⟨S2x1x128, .f32⟩ : BufTy).Contents (Elt F)) : (⟨S_, .f32⟩ : BufTy).Contents (Elt F) :=
  Host.reduceAdd (shapeCast S2 (extractStridedSlice S2x1 off (shapeCast S2x128 out shapeCasts_S2x1x128_S2x128) hs) shapeCasts_S2x1_S2)
    (constant S_ .f32 0x00000000#32) reducesTo_S2_S_d0 h_S_

/-- The final combination: weight7 * (-(cls / 128)) + (weight6 * s0 + s1 + weight5 * s2) / 128. -/
def combine (cl x5 x6 x7 s0 s1 s2 : (⟨S_, .f32⟩ : BufTy).Contents (Elt F)) : (⟨S_, .f32⟩ : BufTy).Contents (Elt F) :=
  addf (mulf x7 (Host.negf (Host.divf cl (constant S_ .f32 0x43000000#32))))
    (Host.divf (addf (addf (mulf x6 s0) s1) (mulf x5 s2)) (constant S_ .f32 0x43000000#32))

variable (m : (ℓ : Loc nD τ sig) → Buf (Elt F) ℓ)

set_option maxRecDepth 65536 in
set_option maxHeartbeats 8000000 in
/-- What the host operations after the kernel leave in the program's result. -/
theorem tail_eq (c : Dev nD) :
    Pipeline.afterTail₀ cfgs (dats m) 0 (V0 m) [hostOps1, hostOps1_1, hostOps1_2, hostOps1_3, hostOps1_4] c main_v23
      = combine (cls (m ((c.tc : Thread nD τ).loc main_arg1)) (m ((c.tc : Thread nD τ).loc main_arg3)))
          (m ((c.tc : Thread nD τ).loc main_arg5)) (m ((c.tc : Thread nD τ).loc main_arg6)) (m ((c.tc : Thread nD τ).loc main_arg7))
          (laneSum ![0, 0] slices_S2x128_S2x1_0_0 ((dats m 0 c).arrAt 3 cfg0.N))
          (laneSum ![0, 1] slices_S2x128_S2x1_0_1 ((dats m 0 c).arrAt 3 cfg0.N))
          (laneSum ![0, 2] slices_S2x128_S2x1_0_2 ((dats m 0 c).arrAt 3 cfg0.N)) := by
  unfold Pipeline.afterTail₀
  simp only [hostOps1, hostOps1_1, hostOps1_2, hostOps1_3, hostOps1_4, List.flatten_cons, List.flatten_nil, List.append_nil,
    List.cons_append, List.nil_append]
  after_results_simp
  have e0 : Pipeline.withArrays (cfgs 0).spec c (V0 m c) (fun w => (dats m 0 c).arrAt w (cfgs 0).N) (Proc.devRef .tc main_v0)
      = (dats m 0 c).arrAt 3 cfg0.N :=
    Pipeline.withArrays_arr (cfgs 0).spec launch0.win.arr_inj c (V0 m c) (fun w => (dats m 0 c).arrAt w (cfgs 0).N) 3
  have e1 := Pipeline.withArrays_of_ne (cfgs 0).spec c (V0 m c) (fun w => (dats m 0 c).arrAt w (cfgs 0).N) main_arg1
    (by exact (by decide : ∀ w, Pipeline.arrRef spec0 w ≠ main_arg1))
  have e3 := Pipeline.withArrays_of_ne (cfgs 0).spec c (V0 m c) (fun w => (dats m 0 c).arrAt w (cfgs 0).N) main_arg3
    (by exact (by decide : ∀ w, Pipeline.arrRef spec0 w ≠ main_arg3))
  have e5 := Pipeline.withArrays_of_ne (cfgs 0).spec c (V0 m c) (fun w => (dats m 0 c).arrAt w (cfgs 0).N) main_arg5
    (by exact (by decide : ∀ w, Pipeline.arrRef spec0 w ≠ main_arg5))
  have e6 := Pipeline.withArrays_of_ne (cfgs 0).spec c (V0 m c) (fun w => (dats m 0 c).arrAt w (cfgs 0).N) main_arg6
    (by exact (by decide : ∀ w, Pipeline.arrRef spec0 w ≠ main_arg6))
  have e7 := Pipeline.withArrays_of_ne (cfgs 0).spec c (V0 m c) (fun w => (dats m 0 c).arrAt w (cfgs 0).N) main_arg7
    (by exact (by decide : ∀ w, Pipeline.arrRef spec0 w ≠ main_arg7))
  rw [e0, e1, e3, e5, e6, e7]
  simp only [Cert.LibTypedRefs.ofBuf_toBuf]
  have l12 : ∀ (p1 p2 p3) (v : (⟨S128x1, .i32⟩ : BufTy).Contents (Elt F)), (TRef.of (T := ⟨S128x1, .i32⟩) main_v12 p1 p2 p3).ofBuf v = v :=
    fun _ _ _ _ => rfl
  have l13 : ∀ (p1 p2 p3) (v : (⟨S128x1, .f32⟩ : BufTy).Contents (Elt F)), (TRef.of (T := ⟨S128x1, .f32⟩) main_v13 p1 p2 p3).toBuf v = v :=
    fun _ _ _ _ => rfl
  have l1 : ∀ (p1 p2 p3) (v : (⟨S128x1000, .f32⟩ : BufTy).Contents (Elt F)), (TRef.of (T := ⟨S128x1000, .f32⟩) main_arg1 p1 p2 p3).ofBuf v = v :=
    fun _ _ _ _ => rfl
  simp only [l12, l13, l1]
  rfl

end Cert.KernelIdeal.TailValue

end
-- ==== Proof.Terms.lean ====
/-
  The three per-cell terms of the loss over the extended reals, as functions of the entries a cell reads: the target's
  channel 0 (g), the predicted objectness (o), and the four coordinate differences (d).
-/
import Idealize.ShloMosaic.PureOps.Ideal.Laws
import Idealize.ShloMosaic.Lib.ValueIdx

noncomputable section

open scoped BigOperators

namespace Cert.Terms

open Idealize.ShloMosaic

/-- The clamp -100. -/
def c100 : EReal := Ideal.ofBits .f32 0xC2C80000#32
/-- The target value 1. -/
def one : EReal := Ideal.ofBits .f32 0x3F800000#32

/-- Where the target is 0: minus the clamped log(1 - o). -/
def tNoobj (g o : EReal) : EReal := Scalar.select (Ideal.cmp .oeq g 0) (-(max (Ideal.log1p (-o)) c100)) 0
/-- Where the target is 1: minus the clamped log o. -/
def tObj (g o : EReal) : EReal := Scalar.select (Ideal.cmp .oeq g one) (-(max (Ideal.log o) c100)) 0
/-- Where the target is 1: the sum of the four squared coordinate differences. -/
def tCoor (g : EReal) (d : Fin 4 → EReal) : EReal := Scalar.select (Ideal.cmp .oeq g one) (∑ k, d k * d k) 0

open Idealize.ShloMosaic.ValueIdx

/-- The three terms over the whole arrays: objectness a0 [128, 224, 224], coordinates a2 [128, 4, 224, 224], targets a4
    [128, 5, 224, 224] (channel 0 the mask, channels 1 … 4 the coordinates). -/
def gNoobj (a0 : (⟨3, ![128, 224, 224]⟩ : Shape).Idx → EReal) (a4 : (⟨4, ![128, 5, 224, 224]⟩ : Shape).Idx → EReal)
    (j : (⟨3, ![128, 224, 224]⟩ : Shape).Idx) : EReal :=
  tNoobj (a4 (ix4 (j 0) 0 (j 1) (j 2))) (a0 j)

def gObj (a0 : (⟨3, ![128, 224, 224]⟩ : Shape).Idx → EReal) (a4 : (⟨4, ![128, 5, 224, 224]⟩ : Shape).Idx → EReal)
    (j : (⟨3, ![128, 224, 224]⟩ : Shape).Idx) : EReal :=
  tObj (a4 (ix4 (j 0) 0 (j 1) (j 2))) (a0 j)

def gCoor (a2 : (⟨4, ![128, 4, 224, 224]⟩ : Shape).Idx → EReal) (a4 : (⟨4, ![128, 5, 224, 224]⟩ : Shape).Idx → EReal)
    (j : (⟨3, ![128, 224, 224]⟩ : Shape).Idx) : EReal :=
  tCoor (a4 (ix4 (j 0) 0 (j 1) (j 2)))
    (fun k => a2 (ix4 (j 0) k (j 1) (j 2)) - a4 (ix4 (j 0) ⟨k.val + 1, by have := k.isLt; omega⟩ (j 1) (j 2)))

/-- The l-th per-cell term over the whole arrays, l = 0, 1, 2. -/
def gOf (l : Fin 3) (a0 : (⟨3, ![128, 224, 224]⟩ : Shape).Idx → EReal) (a2 : (⟨4, ![128, 4, 224, 224]⟩ : Shape).Idx → EReal)
    (a4 : (⟨4, ![128, 5, 224, 224]⟩ : Shape).Idx → EReal) : (⟨3, ![128, 224, 224]⟩ : Shape).Idx → EReal :=
  match l with
  | 0 => gNoobj a0 a4
  | 1 => gObj a0 a4
  | 2 => gCoor a2 a4

end Cert.Terms

end
-- ==== Proof.KCells.lean ====
import proofs.«161776_j55551107006911_2_alg».proof.Proof.KOut
import proofs.«161776_j55551107006911_2_alg».proof.Proof.Terms
import Idealize.ShloMosaic.Lib.Pipeline.Value

noncomputable section

open Idealize.ShloMosaic Idealize.ShloMosaic.TcCoe Idealize.SL.Sem
open Idealize.ShloMosaic.Pipeline (Dat)

/-! The kernel's three masked terms at a cell, over the extended reals, and a window's block at a cell: block t of the
    batch axis is rows 4 t … 4 t + 3 of its array, every other axis whole. Subtracting from 0 is negation. -/

open scoped BigOperators

namespace Cert.KernelIdeal.Cells

open Cert.KernelIdeal Cert.KernelIdeal.Gen Cert.KernelIdeal.StepValue Cert.Terms
open Idealize.ShloMosaic.ValueIdx

/-- Channel 0 of a target block at a cell. -/
theorem chan0_apply (x1 : Vec Ideal S4x5x224x224 .f32) (b : Fin 4) (h w : Fin 224) :
    k0_pay3 x1 (ix3 b h w) = x1 (ix4 b 0 h w) := by
  unfold k0_pay3
  refine (shapeCast_apply _ shapeCasts_S4x1x224x224_S4x224x224 (ix3 b h w) (ix4 b 0 h w) ?_).trans ?_
  · rw [Shape.rowMajor_val_four, Shape.rowMajor_val_three]
    show ((b.val * 1 + 0) * 224 + h.val) * 224 + w.val = (b.val * 224 + h.val) * 224 + w.val
    omega
  · exact extractStridedSlice_apply ![0, 0, 0, 0] x1 slices_S4x5x224x224_o0_0_0_0_S4x1x224x224 (ix4 b 0 h w) (ix4 b 0 h w)
      (fun a => match a with
        | ⟨0, _⟩ => by show b.val = 0 + b.val; omega
        | ⟨1, _⟩ => by show (0 : ℕ) = 0 + 0; omega
        | ⟨2, _⟩ => by show h.val = 0 + h.val; omega
        | ⟨3, _⟩ => by show w.val = 0 + w.val; omega)

/-- Channels 1 … 4 of a target block at a cell. -/
theorem chans_apply (x1 : Vec Ideal S4x5x224x224 .f32) (b : Fin 4) (k : Fin 4) (h w : Fin 224) :
    k0_pay4 x1 (ix4 b k h w) = x1 (ix4 b ⟨k.val + 1, by have := k.isLt; omega⟩ h w) := by
  unfold k0_pay4
  exact extractStridedSlice_apply ![0, 1, 0, 0] x1 slices_S4x5x224x224_o0_1_0_0_S4x4x224x224 (ix4 b k h w) _
    (fun a => match a with
      | ⟨0, _⟩ => by show b.val = 0 + b.val; omega
      | ⟨1, _⟩ => by show k.val + 1 = 1 + k.val; omega
      | ⟨2, _⟩ => by show h.val = 0 + h.val; omega
      | ⟨3, _⟩ => by show w.val = 0 + w.val; omega)

/-- The no-object term at a cell. -/
theorem noobj_apply (x0 : Vec Ideal S4x224x224 .f32) (x1 : Vec Ideal S4x5x224x224 .f32) (b : Fin 4) (h w : Fin 224) :
    noobjBlk x0 x1 (ix3 b h w) = tNoobj (x1 (ix4 b 0 h w)) (x0 (ix3 b h w)) := by
  unfold noobjBlk tNoobj
  rw [select_apply]
  show Scalar.select (Ideal.cmp .oeq (k0_pay3 x1 (ix3 b h w)) (Ideal.ofBits .f32 0x00000000#32))
    (Ideal.ofBits .f32 0x00000000#32 - max (Ideal.log1p (Ideal.ofBits .f32 0x00000000#32 - x0 (ix3 b h w))) c100)
    (Ideal.ofBits .f32 0x00000000#32) = _
  rw [Ideal.ofBits_zero_f32, zero_sub, zero_sub, chan0_apply]

/-- The object term at a cell. -/
theorem obj_apply (x0 : Vec Ideal S4x224x224 .f32) (x1 : Vec Ideal S4x5x224x224 .f32) (b : Fin 4) (h w : Fin 224) :
    k0_pay6 x0 x1 (ix3 b h w) = tObj (x1 (ix4 b 0 h w)) (x0 (ix3 b h w)) := by
  unfold k0_pay6 k0_pay5 tObj
  rw [select_apply]
  show Scalar.select (Ideal.cmp .oeq (k0_pay3 x1 (ix3 b h w)) one)
    (Ideal.ofBits .f32 0x00000000#32 - max (Ideal.log (x0 (ix3 b h w))) c100) (Ideal.ofBits .f32 0x00000000#32) = _
  rw [Ideal.ofBits_zero_f32, zero_sub, chan0_apply]

/-- The coordinate term at a cell. -/
theorem coor_apply (x1 : Vec Ideal S4x5x224x224 .f32) (x2 : Vec Ideal S4x4x224x224 .f32) (b : Fin 4) (h w : Fin 224) :
    coorBlk x1 x2 (ix3 b h w)
      = tCoor (x1 (ix4 b 0 h w)) (fun k => x2 (ix4 b k h w) - x1 (ix4 b ⟨k.val + 1, by have := k.isLt; omega⟩ h w)) := by
  unfold coorBlk k0_pay5 tCoor
  rw [select_apply]
  show Scalar.select (Ideal.cmp .oeq (k0_pay3 x1 (ix3 b h w)) one)
    (multiReduction .add [1] S4x224x224 (mulf (subf x2 (k0_pay4 x1)) (subf x2 (k0_pay4 x1))) 0x00000000#32
      reduces_S4x4x224x224_S4x224x224 (.inl rfl) rfl (ix3 b h w)) (Ideal.ofBits .f32 0x00000000#32) = _
  rw [Ideal.ofBits_zero_f32, chan0_apply]
  refine congrArg (fun s => Scalar.select (Ideal.cmp .oeq (x1 (ix4 b 0 h w)) one) s (0 : EReal)) ?_
  refine (Ideal.multiReduction_add_single _ _ reduces_S4x4x224x224_S4x224x224 _ _ (ix3 b h w)).trans ?_
  refine Fintype.sum_congr _ _ fun (k : Fin 4) => ?_
  have hl : reduces_S4x4x224x224_S4x224x224.lift (ix3 b h w) k = ix4 b k h w :=
    funext fun a => Fin.ext (by match a with | ⟨0, _⟩ => rfl | ⟨1, _⟩ => rfl | ⟨2, _⟩ => rfl | ⟨3, _⟩ => rfl)
  rw [hl]
  show (x2 (ix4 b k h w) - k0_pay4 x1 (ix4 b k h w)) * (x2 (ix4 b k h w) - k0_pay4 x1 (ix4 b k h w))
    = (x2 (ix4 b k h w) - x1 (ix4 b ⟨k.val + 1, by have := k.isLt; omega⟩ h w))
      * (x2 (ix4 b k h w) - x1 (ix4 b ⟨k.val + 1, by have := k.isLt; omega⟩ h w))
  rw [chans_apply x1 b k h w]

variable (m : (ℓ : Loc nD τ sig) → Buf (Elt Ideal) ℓ)

/-- The windows' block indices at a point: the batch block is the point's number, nothing else moves. -/
theorem idx_in : ∀ t : Fin cfg0.N,
    (win0_0.index t (0 : Fin 3) = t.val ∧ win0_0.index t (1 : Fin 3) = 0 ∧ win0_0.index t (2 : Fin 3) = 0)
    ∧ (win0_1.index t (0 : Fin 4) = t.val ∧ win0_1.index t (1 : Fin 4) = 0 ∧ win0_1.index t (2 : Fin 4) = 0
        ∧ win0_1.index t (3 : Fin 4) = 0)
    ∧ (win0_2.index t (0 : Fin 4) = t.val ∧ win0_2.index t (1 : Fin 4) = 0 ∧ win0_2.index t (2 : Fin 4) = 0
        ∧ win0_2.index t (3 : Fin 4) = 0) :=
  (by decide +kernel : ∀ t : Fin grid0.N, _)

/-- The objectness block of point t at a cell: row b + 4 t of the objectness array. -/
theorem blk0_apply (c : Dev nD) (t : Fin cfg0.N) (b : Fin 4) (h w : Fin 224) (B : Fin 128) (hB : B.val = b.val + 4 * t.val) :
    (iblk m c 0 t : Vec Ideal S4x224x224 .f32) (ix3 b h w) = m ((c.tc : Thread nD τ).loc main_arg0) (ix3 B h w) := by
  obtain ⟨⟨e0, e1, e2⟩, -, -⟩ := idx_in t
  unfold iblk
  rw [View.read_apply]
  show m ((c.tc : Thread nD τ).loc main_arg0) _ = m ((c.tc : Thread nD τ).loc main_arg0) _
  refine congrArg _ (funext fun a => Fin.ext ?_)
  match a with
  | ⟨0, _⟩ => show win0_0.index t (0 : Fin 3) * 4 + 1 * b.val = B.val; omega
  | ⟨1, _⟩ => show win0_0.index t (1 : Fin 3) * 224 + 1 * h.val = h.val; omega
  | ⟨2, _⟩ => show win0_0.index t (2 : Fin 3) * 224 + 1 * w.val = w.val; omega

/-- The target block of point t at a cell: row b + 4 t of the target array. -/
theorem blk1_apply (c : Dev nD) (t : Fin cfg0.N) (b : Fin 4) (k : Fin 5) (h w : Fin 224) (B : Fin 128)
    (hB : B.val = b.val + 4 * t.val) :
    (iblk m c 1 t : Vec Ideal S4x5x224x224 .f32) (ix4 b k h w) = m ((c.tc : Thread nD τ).loc main_arg4) (ix4 B k h w) := by
  obtain ⟨-, ⟨e0, e1, e2, e3⟩, -⟩ := idx_in t
  unfold iblk
  rw [View.read_apply]
  show m ((c.tc : Thread nD τ).loc main_arg4) _ = m ((c.tc : Thread nD τ).loc main_arg4) _
  refine congrArg _ (funext fun a => Fin.ext ?_)
  match a with
  | ⟨0, _⟩ => show win0_1.index t (0 : Fin 4) * 4 + 1 * b.val = B.val; omega
  | ⟨1, _⟩ => show win0_1.index t (1 : Fin 4) * 5 + 1 * k.val = k.val; omega
  | ⟨2, _⟩ => show win0_1.index t (2 : Fin 4) * 224 + 1 * h.val = h.val; omega
  | ⟨3, _⟩ => show win0_1.index t (3 : Fin 4) * 224 + 1 * w.val = w.val; omega

/-- The coordinate block of point t at a cell: row b + 4 t of the coordinate array. -/
theorem blk2_apply (c : Dev nD) (t : Fin cfg0.N) (b : Fin 4) (k : Fin 4) (h w : Fin 224) (B : Fin 128)
    (hB : B.val = b.val + 4 * t.val) :
    (iblk m c 2 t : Vec Ideal S4x4x224x224 .f32) (ix4 b k h w) = m ((c.tc : Thread nD τ).loc main_arg2) (ix4 B k h w) := by
  obtain ⟨-, -, ⟨e0, e1, e2, e3⟩⟩ := idx_in t
  unfold iblk
  rw [View.read_apply]
  show m ((c.tc : Thread nD τ).loc main_arg2) _ = m ((c.tc : Thread nD τ).loc main_arg2) _
  refine congrArg _ (funext fun a => Fin.ext ?_)
  match a with
  | ⟨0, _⟩ => show win0_2.index t (0 : Fin 4) * 4 + 1 * b.val = B.val; omega
  | ⟨1, _⟩ => show win0_2.index t (1 : Fin 4) * 4 + 1 * k.val = k.val; omega
  | ⟨2, _⟩ => show win0_2.index t (2 : Fin 4) * 224 + 1 * h.val = h.val; omega
  | ⟨3, _⟩ => show win0_2.index t (3 : Fin 4) * 224 + 1 * w.val = w.val; omega

end Cert.KernelIdeal.Cells

end
-- ==== Proof.LibBatchSum.lean ====
/-
  GENERAL lemmas: a sum over a rank-1 index set is the sum over its coordinate; and an array of N = T * bb batch rows read as T blocks of bb rows. If a family f t of [bb, H, W] arrays
  agrees with one [N, H, W] array g through the block reading, row b of block t being row b + bb * t, then the total of
  all the f t is the total of g (any additive commutative monoid: no finiteness).
-/
import proofs.«161776_j55551107006911_2_alg».proof.Proof.LibTotals

noncomputable section

open scoped BigOperators

namespace Cert.LibTotals

open Idealize.ShloMosaic Idealize.ShloMosaic.ValueIdx

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

theorem sum_batch_blocks {M : Type*} [AddCommMonoid M] {T bb N H W : ℕ} (hN : T * bb = N)
    (f : Fin T → (⟨3, ![bb, H, W]⟩ : Shape).Idx → M) (g : (⟨3, ![N, H, W]⟩ : Shape).Idx → M)
    (hfg : ∀ (t : Fin T) (b : Fin bb) (h : Fin H) (w : Fin W) (B : Fin N), B.val = b.val + bb * t.val →
      f t (ix3 b h w) = g (ix3 B h w)) :
    ∑ t, ∑ i, f t i = ∑ j, g j := by
  subst hN
  rw [sum_idx3 g, ← (finProdFinEquiv (m := T) (n := bb)).sum_comp (fun B => ∑ h : Fin H, ∑ w : Fin W, g (ix3 B h w)),
    Fintype.sum_prod_type]
  refine Fintype.sum_congr _ _ fun t => ?_
  rw [sum_idx3 (f t)]
  exact Fintype.sum_congr _ _ fun b => Fintype.sum_congr _ _ fun h => Fintype.sum_congr _ _ fun w => hfg t b h w _ rfl

end Cert.LibTotals

end
-- ==== Proof.KValue.lean ====
import proofs.«161776_j55551107006911_2_alg».proof.Proof.KTail
import proofs.«161776_j55551107006911_2_alg».proof.Proof.KCells
import proofs.«161776_j55551107006911_2_alg».proof.Proof.LibBatchSum

noncomputable section

open Idealize.ShloMosaic Idealize.ShloMosaic.TcCoe Idealize.SL.Sem
open Idealize.ShloMosaic.Pipeline (Dat)

/-! The kernel's three numbers over the extended reals. The host's sum of lane k over the result array's two rows is 0
    plus the two rows' lane k; the rows' lanes are the two runs' totals; the thirty-two points' totals are the totals
    of the per-cell terms over the 128 batch rows, block t of four rows being rows 4 t … 4 t + 3. -/

open scoped BigOperators

namespace Cert.KernelIdeal.Value

open Cert.KernelIdeal Cert.KernelIdeal.Gen Cert.KernelIdeal.StepValue Cert.KernelIdeal.Chain Cert.KernelIdeal.OutValue
open Cert.KernelIdeal.Cells Cert.KernelIdeal.TailValue Cert.Terms Cert.LibTotals
open Idealize.ShloMosaic.ValueIdx

/-- The host's sum of one lane over the two rows. -/
theorem laneSum_apply (k : ℕ) (hk : k < 128) (hs : S2x128.Slices ![0, k] S2x1) (out : S2x1x128.Idx → EReal) (i : S_.Idx) :
    laneSum (F := Ideal) ![0, k] hs out i = 0 + ∑ q : Fin 2, out (ix3 q 0 ⟨k, hk⟩) := by
  unfold laneSum
  simp only [Host.reduceAdd, Ideal.hostReduceAdd_def]
  rw [Ideal.hostReduceAdd_total reducesTo_S2_S_d0 (fun b => b.elim0)]
  refine congrArg₂ (· + ·) Ideal.ofBits_zero_f32 ?_
  rw [sum_idx1]
  refine Fintype.sum_congr _ _ fun q => ?_
  refine (shapeCast_apply _ shapeCasts_S2x1_S2 (ix1 q) (ix2 q 0) ?_).trans ?_
  · rw [Shape.rowMajor_val_two, Shape.rowMajor_val_one]
    show q.val * 1 + 0 = q.val
    omega
  refine (extractStridedSlice_apply ![0, k] _ hs (ix2 q 0) (ix2 q ⟨k, hk⟩) (fun a => match a with
      | ⟨0, _⟩ => by show q.val = 0 + q.val; omega
      | ⟨1, _⟩ => by show k = k + 0; omega)).trans ?_
  refine shapeCast_apply out shapeCasts_S2x1x128_S2x128 (ix2 q ⟨k, hk⟩) (ix3 q 0 ⟨k, hk⟩) ?_
  rw [Shape.rowMajor_val_three, Shape.rowMajor_val_two]
  show (q.val * 1 + 0) * 128 + k = q.val * 128 + k
  omega

variable (m : (ℓ : Loc nD τ sig) → Buf (Elt Ideal) ℓ)

/-- The thirty-two points' l-th totals are the total of the l-th per-cell term over the whole arrays. -/
theorem part_total (c : Dev nD) (l : Fin 3) :
    ∑ t : Fin cfg0.N, part m c l t
      = ∑ j, gOf l (m ((c.tc : Thread nD τ).loc main_arg0)) (m ((c.tc : Thread nD τ).loc main_arg2))
          (m ((c.tc : Thread nD τ).loc main_arg4)) j := by
  have hN : cfg0.N * 4 = 128 := by rw [show cfg0.N = 32 from N_0]
  fin_cases l
  · show ∑ t : Fin cfg0.N, ∑ i, noobjBlk (iblk m c 0 t) (iblk m c 1 t) i = ∑ j, gNoobj _ _ j
    refine sum_batch_blocks hN (fun t i => noobjBlk (iblk m c 0 t) (iblk m c 1 t) i) _ fun t b h w B hB => ?_
    refine (noobj_apply (iblk m c 0 t) (iblk m c 1 t) b h w).trans ?_
    exact congrArg₂ tNoobj (blk1_apply m c t b 0 h w B hB) (blk0_apply m c t b h w B hB)
  · show ∑ t : Fin cfg0.N, ∑ i, k0_pay6 (iblk m c 0 t) (iblk m c 1 t) i = ∑ j, gObj _ _ j
    refine sum_batch_blocks hN (fun t i => k0_pay6 (iblk m c 0 t) (iblk m c 1 t) i) _ fun t b h w B hB => ?_
    refine (obj_apply (iblk m c 0 t) (iblk m c 1 t) b h w).trans ?_
    exact congrArg₂ tObj (blk1_apply m c t b 0 h w B hB) (blk0_apply m c t b h w B hB)
  · show ∑ t : Fin cfg0.N, ∑ i, coorBlk (iblk m c 1 t) (iblk m c 2 t) i = ∑ j, gCoor _ _ j
    refine sum_batch_blocks hN (fun t i => coorBlk (iblk m c 1 t) (iblk m c 2 t) i) _ fun t b h w B hB => ?_
    refine (coor_apply (iblk m c 1 t) (iblk m c 2 t) b h w).trans ?_
    refine congrArg₂ tCoor (blk1_apply m c t b 0 h w B hB) (funext fun k => ?_)
    exact congrArg₂ (· - ·) (blk2_apply m c t b k h w B hB) (blk1_apply m c t b _ h w B hB)

/-- The host's sum of lane l over the kernel's result array is 0 plus the total of the l-th per-cell term. -/
theorem lane_total (c : Dev nD) (l : Fin 3) (hs : S2x128.Slices ![0, l.val] S2x1) (i : S_.Idx) :
    laneSum (F := Ideal) ![0, l.val] hs ((dats m 0 c).arrAt 3 cfg0.N) i
      = 0 + ∑ j, gOf l (m ((c.tc : Thread nD τ).loc main_arg0)) (m ((c.tc : Thread nD τ).loc main_arg2))
          (m ((c.tc : Thread nD τ).loc main_arg4)) j := by
  rw [final m c, laneSum_apply l.val (by have := l.isLt; omega) hs (outArr m c) i, rows_sum m c l, part_total m c l]

end Cert.KernelIdeal.Value

end
-- ==== Proof.RefTerm.lean ====
import proofs.«161776_j55551107006911_2_alg».proof.Proof.Gen.ReferenceIdeal
import Idealize.ShloMosaic.Lib.StableHlo.Run

noncomputable section

open Idealize.ShloMosaic Idealize.ShloMosaic.TcCoe Idealize.SL.Sem

/-! The reference's result as a function of its eight arguments: three masked whole-array sums and the mean classification
    cross entropy, combined with the three scalar weights. -/

namespace Cert.ReferenceIdeal.RefTerm

open Cert.ReferenceIdeal Cert.ReferenceIdeal.Gen Idealize.ShloMosaic.StableHlo

variable {F : FTy → Type} [FloatOps F]

/-- The classification term: the sum over the batch of the log-softmax score at the label (an out-of-range label reads the
    junk word), before the division by the batch size. -/
def cls (x1 : (⟨S128x1000, .f32⟩ : BufTy).Contents (Elt F)) (x3 : (⟨S128, .i32⟩ : BufTy).Contents (Elt F)) : (⟨S_, .f32⟩ : BufTy).Contents (Elt F) :=
  Host.reduceAdd (select (Host.reduce IntOp.andi (andi (cmpi .sge (shapeCast _ (select (cmpi .slt (broadcastInDim S128x1 ![0] bcast_S128_S128x1_0 x3) (broadcastInDim S128x1 ![] bcast_S_S128x1 (constantI S_ 32 0#32))) (addi (broadcastInDim S128x1 ![0] bcast_S128_S128x1_0 x3) (broadcastInDim S128x1 ![] bcast_S_S128x1 (constantI S_ 32 1000#32))) (broadcastInDim S128x1 ![0] bcast_S128_S128x1_0 x3)) shapeCasts_S128x1_S128x1x1) (broadcastInDim S128x1x1 ![] bcast_S_S128x1x1 (constantI S_ 32 0#32))) (cmpi .sle (shapeCast _ (select (cmpi .slt (broadcastInDim S128x1 ![0] bcast_S128_S128x1_0 x3) (broadcastInDim S128x1 ![] bcast_S_S128x1 (constantI S_ 32 0#32))) (addi (broadcastInDim S128x1 ![0] bcast_S128_S128x1_0 x3) (broadcastInDim S128x1 ![] bcast_S_S128x1 (constantI S_ 32 1000#32))) (broadcastInDim S128x1 ![0] bcast_S128_S128x1_0 x3)) shapeCasts_S128x1_S128x1x1) (broadcastInDim S128x1x1 ![0, 1, 2] bcast_S1x1x1_S128x1x1_0_1_2 (broadcastInDim S1x1x1 ![2] bcast_S1_S1x1x1_2 (constantI S1 32 999#32))))) (constantI S_ 1 1#1) reducesTo_S128x1x1_S128x1_d2 h_S_) (Host.gather gather_S128x1000_S128x1x1_S128x1_n_1_0_0_1_2_11 (subf (subf x1 (broadcastInDim S128x1000 ![0, 1] bcast_S128x1_S128x1000_0_1 (broadcastInDim S128x1 ![0] bcast_S128_S128x1_0 (maximumf (broadcastInDim S128 ![] bcast_S_S128 (constant S_ .f32 0xFF800000#32)) (Host.reduce FloatOps.maximumf x1 (constant S_ .f32 0xFF800000#32) reducesTo_S128x1000_S128_d1 h_S_))))) (broadcastInDim S128x1000 ![0, 1] bcast_S128x1_S128x1000_0_1 (Host.log (broadcastInDim S128x1 ![0] bcast_S128_S128x1_0 (Host.reduceAdd (Host.exp (subf x1 (broadcastInDim S128x1000 ![0, 1] bcast_S128x1_S128x1000_0_1 (broadcastInDim S128x1 ![0] bcast_S128_S128x1_0 (maximumf (broadcastInDim S128 ![] bcast_S_S128 (constant S_ .f32 0xFF800000#32)) (Host.reduce FloatOps.maximumf x1 (constant S_ .f32 0xFF800000#32) reducesTo_S128x1000_S128_d1 h_S_)))))) (constant S_ .f32 0x00000000#32) reducesTo_S128x1000_S128_d1 h_S_))))) (shapeCast _ (select (cmpi .slt (broadcastInDim S128x1 ![0] bcast_S128_S128x1_0 x3) (broadcastInDim S128x1 ![] bcast_S_S128x1 (constantI S_ 32 0#32))) (addi (broadcastInDim S128x1 ![0] bcast_S128_S128x1_0 x3) (broadcastInDim S128x1 ![] bcast_S_S128x1 (constantI S_ 32 1000#32))) (broadcastInDim S128x1 ![0] bcast_S128_S128x1_0 x3)) shapeCasts_S128x1_S128x1x1)) (broadcastInDim S128x1 ![] bcast_S_S128x1 (constant S_ .f32 0x7FC00000#32))) (constant S_ .f32 0x00000000#32) reducesTo_S128x1_S_d0_1 h_S_

/-- The no-object term over the whole array. -/
def noobjArr (x0 : (⟨S128x224x224, .f32⟩ : BufTy).Contents (Elt F)) (x4 : (⟨S128x5x224x224, .f32⟩ : BufTy).Contents (Elt F)) : (⟨S128x224x224, .f32⟩ : BufTy).Contents (Elt F) :=
  select (cmpf .oeq (shapeCast _ (extractStridedSlice S128x1x224x224 ![0, 0, 0, 0] x4 slices_S128x5x224x224_S128x1x224x224_0_0_0_0) shapeCasts_S128x1x224x224_S128x224x224) (broadcastInDim S128x224x224 ![] bcast_S_S128x224x224 (constant S_ .f32 0x00000000#32))) (Host.negf (maximumf (Host.log1p (Host.negf x0)) (broadcastInDim S128x224x224 ![] bcast_S_S128x224x224 (constant S_ .f32 0xC2C80000#32)))) (broadcastInDim S128x224x224 ![] bcast_S_S128x224x224 (id (constant S_ .f32 0x00000000#32)))

/-- The object term over the whole array. -/
def objArr (x0 : (⟨S128x224x224, .f32⟩ : BufTy).Contents (Elt F)) (x4 : (⟨S128x5x224x224, .f32⟩ : BufTy).Contents (Elt F)) : (⟨S128x224x224, .f32⟩ : BufTy).Contents (Elt F) :=
  select (cmpf .oeq (shapeCast _ (extractStridedSlice S128x1x224x224 ![0, 0, 0, 0] x4 slices_S128x5x224x224_S128x1x224x224_0_0_0_0) shapeCasts_S128x1x224x224_S128x224x224) (broadcastInDim S128x224x224 ![] bcast_S_S128x224x224 (constant S_ .f32 0x3F800000#32))) (Host.negf (maximumf (Host.log x0) (broadcastInDim S128x224x224 ![] bcast_S_S128x224x224 (constant S_ .f32 0xC2C80000#32)))) (broadcastInDim S128x224x224 ![] bcast_S_S128x224x224 (id (constant S_ .f32 0x00000000#32)))

/-- The coordinate term over the whole array. -/
def coorArr (x2 : (⟨S128x4x224x224, .f32⟩ : BufTy).Contents (Elt F)) (x4 : (⟨S128x5x224x224, .f32⟩ : BufTy).Contents (Elt F)) : (⟨S128x224x224, .f32⟩ : BufTy).Contents (Elt F) :=
  select (cmpf .oeq (shapeCast _ (extractStridedSlice S128x1x224x224 ![0, 0, 0, 0] x4 slices_S128x5x224x224_S128x1x224x224_0_0_0_0) shapeCasts_S128x1x224x224_S128x224x224) (broadcastInDim S128x224x224 ![] bcast_S_S128x224x224 (constant S_ .f32 0x3F800000#32))) (Host.reduceAdd (mulf (subf x2 (extractStridedSlice S128x4x224x224 ![0, 1, 0, 0] x4 slices_S128x5x224x224_S128x4x224x224_0_1_0_0)) (subf x2 (extractStridedSlice S128x4x224x224 ![0, 1, 0, 0] x4 slices_S128x5x224x224_S128x4x224x224_0_1_0_0))) (constant S_ .f32 0x00000000#32) reducesTo_S128x4x224x224_S128x224x224_d1 h_S_) (broadcastInDim S128x224x224 ![] bcast_S_S128x224x224 (id (constant S_ .f32 0x00000000#32)))

/-- The host's sum of a whole [128, 224, 224] array from zero. -/
def total (v : (⟨S128x224x224, .f32⟩ : BufTy).Contents (Elt F)) : (⟨S_, .f32⟩ : BufTy).Contents (Elt F) :=
  Host.reduceAdd v (constant S_ .f32 0x00000000#32) reducesTo_S128x224x224_S_d0_1_2 h_S_

/-- The final combination: weight7 * (-(cls / 128)) + (weight6 * s0 + s1 + weight5 * s2) / 128. -/
def combine (cl x5 x6 x7 s0 s1 s2 : (⟨S_, .f32⟩ : BufTy).Contents (Elt F)) : (⟨S_, .f32⟩ : BufTy).Contents (Elt F) :=
  addf (mulf x7 (Host.negf (Host.divf cl (constant S_ .f32 0x43000000#32))))
    (Host.divf (addf (addf (mulf x6 s0) s1) (mulf x5 s2)) (constant S_ .f32 0x43000000#32))

/-- The reference's result. -/
def res (x0 : (⟨S128x224x224, .f32⟩ : BufTy).Contents (Elt F)) (x1 : (⟨S128x1000, .f32⟩ : BufTy).Contents (Elt F)) (x2 : (⟨S128x4x224x224, .f32⟩ : BufTy).Contents (Elt F))
    (x3 : (⟨S128, .i32⟩ : BufTy).Contents (Elt F)) (x4 : (⟨S128x5x224x224, .f32⟩ : BufTy).Contents (Elt F)) (x5 x6 x7 : (⟨S_, .f32⟩ : BufTy).Contents (Elt F)) : (⟨S_, .f32⟩ : BufTy).Contents (Elt F) :=
  combine (cls x1 x3) x5 x6 x7 (total (noobjArr x0 x4)) (total (objArr x0 x4)) (total (coorArr x2 x4))

end Cert.ReferenceIdeal.RefTerm

end
-- ==== Proof.RValue.lean ====
import proofs.«161776_j55551107006911_2_alg».proof.Proof.RefTerm
import proofs.«161776_j55551107006911_2_alg».proof.Proof.Terms
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

/-! The reference's three numbers over the extended reals: each is 0 plus the total over the whole [128, 224, 224] array of
    the per-cell term. The host's negation is negation, its log and log(1 + x) are the kernel's, and its sum over the four
    coordinate channels starts from 0. -/

open scoped BigOperators

namespace Cert.ReferenceIdeal.RefValue

open Cert.ReferenceIdeal Cert.ReferenceIdeal.Gen Cert.ReferenceIdeal.RefTerm Cert.Terms
open Idealize.ShloMosaic.ValueIdx

/-- The host's sum of a whole array from zero. -/
theorem total_apply (v : S128x224x224.Idx → EReal) (i : S_.Idx) : total (F := Ideal) v i = 0 + ∑ j, v j := by
  unfold total
  simp only [Host.reduceAdd, Ideal.hostReduceAdd_def]
  rw [Ideal.hostReduceAdd_total reducesTo_S128x224x224_S_d0_1_2 (fun b => b.elim0)]
  exact congrArg₂ (· + ·) Ideal.ofBits_zero_f32 rfl

/-- Channel 0 of the target array at a cell. -/
theorem chan0_apply (x4 : S128x5x224x224.Idx → EReal) (j : S128x224x224.Idx) :
    shapeCast S128x224x224 (extractStridedSlice S128x1x224x224 ![0, 0, 0, 0] x4 slices_S128x5x224x224_S128x1x224x224_0_0_0_0)
      shapeCasts_S128x1x224x224_S128x224x224 j = x4 (ix4 (j 0) 0 (j 1) (j 2)) := by
  refine (shapeCast_apply _ shapeCasts_S128x1x224x224_S128x224x224 j (ix4 (j 0) 0 (j 1) (j 2)) ?_).trans ?_
  · rw [Shape.rowMajor_val_four, Shape.rowMajor_val_three]
    show (((j 0).val * 1 + 0) * 224 + (j 1).val) * 224 + (j 2).val = ((j 0).val * 224 + (j 1).val) * 224 + (j 2).val
    omega
  · exact extractStridedSlice_apply ![0, 0, 0, 0] x4 slices_S128x5x224x224_S128x1x224x224_0_0_0_0 (ix4 (j 0) 0 (j 1) (j 2))
      (ix4 (j 0) 0 (j 1) (j 2)) (fun a => match a with
        | ⟨0, _⟩ => by show (j 0).val = 0 + (j 0).val; omega
        | ⟨1, _⟩ => by show (0 : ℕ) = 0 + 0; omega
        | ⟨2, _⟩ => by show (j 1).val = 0 + (j 1).val; omega
        | ⟨3, _⟩ => by show (j 2).val = 0 + (j 2).val; omega)

/-- A scalar constant spread over the array, at a cell. -/
theorem splat_apply (b : BitVec 32) (j : S128x224x224.Idx) :
    broadcastInDim S128x224x224 ![] bcast_S_S128x224x224 (constant (F := Ideal) S_ .f32 b) j = Ideal.ofBits .f32 b :=
  broadcastInDim_apply _ bcast_S_S128x224x224 _ j ix0 (fun a => a.elim0)

/-- The no-object term at a cell. -/
theorem noobjArr_apply (x0 : S128x224x224.Idx → EReal) (x4 : S128x5x224x224.Idx → EReal) (j : S128x224x224.Idx) :
    noobjArr (F := Ideal) x0 x4 j = gNoobj x0 x4 j := by
  unfold noobjArr gNoobj tNoobj
  rw [select_apply]
  show Scalar.select (Ideal.cmp .oeq (shapeCast S128x224x224 _ shapeCasts_S128x1x224x224_S128x224x224 j)
      (broadcastInDim S128x224x224 ![] bcast_S_S128x224x224 (constant (F := Ideal) S_ .f32 0x00000000#32) j))
    (-(max (Ideal.log1p (-(x0 j)))
      (broadcastInDim S128x224x224 ![] bcast_S_S128x224x224 (constant (F := Ideal) S_ .f32 0xC2C80000#32) j)))
    (broadcastInDim S128x224x224 ![] bcast_S_S128x224x224 (constant (F := Ideal) S_ .f32 0x00000000#32) j) = _
  rw [splat_apply, splat_apply, Ideal.ofBits_zero_f32, chan0_apply]
  rfl

/-- The object term at a cell. -/
theorem objArr_apply (x0 : S128x224x224.Idx → EReal) (x4 : S128x5x224x224.Idx → EReal) (j : S128x224x224.Idx) :
    objArr (F := Ideal) x0 x4 j = gObj x0 x4 j := by
  unfold objArr gObj tObj
  rw [select_apply]
  show Scalar.select (Ideal.cmp .oeq (shapeCast S128x224x224 _ shapeCasts_S128x1x224x224_S128x224x224 j)
      (broadcastInDim S128x224x224 ![] bcast_S_S128x224x224 (constant (F := Ideal) S_ .f32 0x3F800000#32) j))
    (-(max (Ideal.log (x0 j))
      (broadcastInDim S128x224x224 ![] bcast_S_S128x224x224 (constant (F := Ideal) S_ .f32 0xC2C80000#32) j)))
    (broadcastInDim S128x224x224 ![] bcast_S_S128x224x224 (constant (F := Ideal) S_ .f32 0x00000000#32) j) = _
  rw [splat_apply, splat_apply, splat_apply, Ideal.ofBits_zero_f32, chan0_apply]
  rfl

/-- The coordinate term at a cell. -/
theorem coorArr_apply (x2 : S128x4x224x224.Idx → EReal) (x4 : S128x5x224x224.Idx → EReal) (j : S128x224x224.Idx) :
    coorArr (F := Ideal) x2 x4 j = gCoor x2 x4 j := by
  unfold coorArr gCoor tCoor
  rw [select_apply]
  show Scalar.select (Ideal.cmp .oeq (shapeCast S128x224x224 _ shapeCasts_S128x1x224x224_S128x224x224 j)
      (broadcastInDim S128x224x224 ![] bcast_S_S128x224x224 (constant (F := Ideal) S_ .f32 0x3F800000#32) j))
    (Ideal.hostReduceAdd reducesTo_S128x4x224x224_S128x224x224_d1
      (mulf (F := Ideal) (φ := .f32)
        (subf (F := Ideal) (φ := .f32) x2 (extractStridedSlice S128x4x224x224 ![0, 1, 0, 0] x4 slices_S128x5x224x224_S128x4x224x224_0_1_0_0))
        (subf (F := Ideal) (φ := .f32) x2 (extractStridedSlice S128x4x224x224 ![0, 1, 0, 0] x4 slices_S128x5x224x224_S128x4x224x224_0_1_0_0)))
      (constant (F := Ideal) S_ .f32 0x00000000#32 (Shape.Idx.first h_S_)) j)
    (broadcastInDim S128x224x224 ![] bcast_S_S128x224x224 (constant (F := Ideal) S_ .f32 0x00000000#32) j) = _
  rw [splat_apply, splat_apply, Ideal.ofBits_zero_f32, chan0_apply]
  refine congrArg (fun s => Scalar.select (Ideal.cmp .oeq (x4 (ix4 (j 0) 0 (j 1) (j 2))) one) s (0 : EReal)) ?_
  rw [Ideal.hostReduceAdd_single reducesTo_S128x4x224x224_S128x224x224_d1 (by decide)]
  refine (congrArg₂ (· + ·) Ideal.ofBits_zero_f32 rfl).trans ((zero_add _).trans ?_)
  refine Fintype.sum_congr _ _ fun (k : Fin 4) => ?_
  have hl : (by decide : S128x4x224x224.Reduces [1] S128x224x224).lift j k = ix4 (j 0) k (j 1) (j 2) :=
    funext fun a => Fin.ext (by match a with | ⟨0, _⟩ => rfl | ⟨1, _⟩ => rfl | ⟨2, _⟩ => rfl | ⟨3, _⟩ => rfl)
  rw [hl]
  have hs : extractStridedSlice S128x4x224x224 ![0, 1, 0, 0] x4 slices_S128x5x224x224_S128x4x224x224_0_1_0_0
      (ix4 (j 0) k (j 1) (j 2)) = x4 (ix4 (j 0) ⟨k.val + 1, by have := k.isLt; omega⟩ (j 1) (j 2)) :=
    extractStridedSlice_apply ![0, 1, 0, 0] x4 slices_S128x5x224x224_S128x4x224x224_0_1_0_0 _ _ (fun a => match a with
      | ⟨0, _⟩ => by show (j 0).val = 0 + (j 0).val; omega
      | ⟨1, _⟩ => by show k.val + 1 = 1 + k.val; omega
      | ⟨2, _⟩ => by show (j 1).val = 0 + (j 1).val; omega
      | ⟨3, _⟩ => by show (j 2).val = 0 + (j 2).val; omega)
  show (x2 (ix4 (j 0) k (j 1) (j 2)) - extractStridedSlice S128x4x224x224 ![0, 1, 0, 0] x4 _ (ix4 (j 0) k (j 1) (j 2)))
      * (x2 (ix4 (j 0) k (j 1) (j 2)) - extractStridedSlice S128x4x224x224 ![0, 1, 0, 0] x4 _ (ix4 (j 0) k (j 1) (j 2)))
    = (x2 (ix4 (j 0) k (j 1) (j 2)) - x4 (ix4 (j 0) ⟨k.val + 1, by have := k.isLt; omega⟩ (j 1) (j 2)))
      * (x2 (ix4 (j 0) k (j 1) (j 2)) - x4 (ix4 (j 0) ⟨k.val + 1, by have := k.isLt; omega⟩ (j 1) (j 2)))
  rw [hs]

/-- The reference's l-th number. -/
theorem totals (x0 : S128x224x224.Idx → EReal) (x2 : S128x4x224x224.Idx → EReal) (x4 : S128x5x224x224.Idx → EReal)
    (i : S_.Idx) :
    total (F := Ideal) (noobjArr x0 x4) i = 0 + ∑ j, gOf 0 x0 x2 x4 j
    ∧ total (F := Ideal) (objArr x0 x4) i = 0 + ∑ j, gOf 1 x0 x2 x4 j
    ∧ total (F := Ideal) (coorArr x2 x4) i = 0 + ∑ j, gOf 2 x0 x2 x4 j := by
  refine ⟨?_, ?_, ?_⟩
  · rw [total_apply]; exact congrArg _ (Fintype.sum_congr _ _ fun j => noobjArr_apply x0 x4 j)
  · rw [total_apply]; exact congrArg _ (Fintype.sum_congr _ _ fun j => objArr_apply x0 x4 j)
  · rw [total_apply]; exact congrArg _ (Fintype.sum_congr _ _ fun j => coorArr_apply x2 x4 j)

end Cert.ReferenceIdeal.RefValue

end
-- ==== Proof.RefRun.lean ====
import proofs.«161776_j55551107006911_2_alg».proof.Proof.RefTerm
import proofs.«161776_j55551107006911_2_alg».proof.Proof.LibTypedRefs
import Idealize.ShloMosaic.Lib.StableHlo.Run

noncomputable section

/-! The reference's run: its @main is a straight line of host operations, so every weakly fair execution ends with the
    result buffer at the operations' composed value of the arguments and the arguments unchanged. -/

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- @main's 93 operations, in order (a called function's operations stand in its call's place, spelt `TRef.…`). -/
abbrev ops : List (HloOp τ sig (Elt F)) :=
  [ unary main_arg4 main_v0 ((extractStridedSlice S128x1x224x224 ![0, 0, 0, 0] · slices_S128x5x224x224_S128x1x224x224_0_0_0_0) : (⟨S128x5x224x224, .f32⟩ : BufTy).Contents (Elt F) → (⟨S128x1x224x224, .f32⟩ : BufTy).Contents (Elt F)),
    reshape main_v0 main_v1 rfl shapeCasts_S128x1x224x224_S128x224x224,
    nullary main_cst (constant S_ .f32 0x3F800000#32),
    unary main_cst main_v2 (broadcastInDim S128x224x224 ![] bcast_S_S128x224x224 : (⟨S_, .f32⟩ : BufTy).Contents (Elt F) → (⟨S128x224x224, .f32⟩ : BufTy).Contents (Elt F)),
    binary main_v1 main_v2 main_v3 (cmpf .oeq : (⟨S128x224x224, .f32⟩ : BufTy).Contents (Elt F) → (⟨S128x224x224, .f32⟩ : BufTy).Contents (Elt F) → (⟨S128x224x224, .i1⟩ : BufTy).Contents (Elt F)),
    nullary main_cst_0 (constant S_ .f32 0x00000000#32),
    unary main_cst_0 main_v4 (broadcastInDim S128x224x224 ![] bcast_S_S128x224x224 : (⟨S_, .f32⟩ : BufTy).Contents (Elt F) → (⟨S128x224x224, .f32⟩ : BufTy).Contents (Elt F)),
    binary main_v1 main_v4 main_v5 (cmpf .oeq : (⟨S128x224x224, .f32⟩ : BufTy).Contents (Elt F) → (⟨S128x224x224, .f32⟩ : BufTy).Contents (Elt F) → (⟨S128x224x224, .i1⟩ : BufTy).Contents (Elt F)),
    unary main_arg0 main_v6 (Host.log : (⟨S128x224x224, .f32⟩ : BufTy).Contents (Elt F) → (⟨S128x224x224, .f32⟩ : BufTy).Contents (Elt F)),
    nullary main_cst_1 (constant S_ .f32 0xC2C80000#32),
    unary main_cst_1 main_v7 (broadcastInDim S128x224x224 ![] bcast_S_S128x224x224 : (⟨S_, .f32⟩ : BufTy).Contents (Elt F) → (⟨S128x224x224, .f32⟩ : BufTy).Contents (Elt F)),
    binary main_v6 main_v7 main_v8 (maximumf : (⟨S128x224x224, .f32⟩ : BufTy).Contents (Elt F) → (⟨S128x224x224, .f32⟩ : BufTy).Contents (Elt F) → (⟨S128x224x224, .f32⟩ : BufTy).Contents (Elt F)),
    unary main_arg0 main_v9 (Host.negf : (⟨S128x224x224, .f32⟩ : BufTy).Contents (Elt F) → (⟨S128x224x224, .f32⟩ : BufTy).Contents (Elt F)),
    unary main_v9 main_v10 (Host.log1p : (⟨S128x224x224, .f32⟩ : BufTy).Contents (Elt F) → (⟨S128x224x224, .f32⟩ : BufTy).Contents (Elt F)),
    nullary main_cst_2 (constant S_ .f32 0xC2C80000#32),
    unary main_cst_2 main_v11 (broadcastInDim S128x224x224 ![] bcast_S_S128x224x224 : (⟨S_, .f32⟩ : BufTy).Contents (Elt F) → (⟨S128x224x224, .f32⟩ : BufTy).Contents (Elt F)),
    binary main_v10 main_v11 main_v12 (maximumf : (⟨S128x224x224, .f32⟩ : BufTy).Contents (Elt F) → (⟨S128x224x224, .f32⟩ : BufTy).Contents (Elt F) → (⟨S128x224x224, .f32⟩ : BufTy).Contents (Elt F)),
    unary main_v12 main_v13 (Host.negf : (⟨S128x224x224, .f32⟩ : BufTy).Contents (Elt F) → (⟨S128x224x224, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S128x224x224, .f32⟩) main_call0_v1) (broadcastInDim S128x224x224 ![] bcast_S_S128x224x224),
    TRef.ternary (TRef.of (T := ⟨S128x224x224, .i1⟩) main_v5) (TRef.of (T := ⟨S128x224x224, .f32⟩) main_v13) (TRef.of (T := ⟨S128x224x224, .f32⟩) main_call0_v1) (TRef.of (T := ⟨S128x224x224, .f32⟩) main_v14) select,
    nullary main_cst_4 (constant S_ .f32 0x00000000#32),
    binary main_v14 main_cst_4 main_v15 ((fun x v => Host.reduceAdd x v reducesTo_S128x224x224_S_d0_1_2 h_S_) : (⟨S128x224x224, .f32⟩ : BufTy).Contents (Elt F) → (⟨S_, .f32⟩ : BufTy).Contents (Elt F) → (⟨S_, .f32⟩ : BufTy).Contents (Elt F)),
    unary main_v8 main_v16 (Host.negf : (⟨S128x224x224, .f32⟩ : BufTy).Contents (Elt F) → (⟨S128x224x224, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S128x224x224, .f32⟩) main_call1_v1) (broadcastInDim S128x224x224 ![] bcast_S_S128x224x224),
    TRef.ternary (TRef.of (T := ⟨S128x224x224, .i1⟩) main_v3) (TRef.of (T := ⟨S128x224x224, .f32⟩) main_v16) (TRef.of (T := ⟨S128x224x224, .f32⟩) main_call1_v1) (TRef.of (T := ⟨S128x224x224, .f32⟩) main_v17) select,
    nullary main_cst_6 (constant S_ .f32 0x00000000#32),
    binary main_v17 main_cst_6 main_v18 ((fun x v => Host.reduceAdd x v reducesTo_S128x224x224_S_d0_1_2 h_S_) : (⟨S128x224x224, .f32⟩ : BufTy).Contents (Elt F) → (⟨S_, .f32⟩ : BufTy).Contents (Elt F) → (⟨S_, .f32⟩ : BufTy).Contents (Elt F)),
    unary main_arg4 main_v19 ((extractStridedSlice S128x4x224x224 ![0, 1, 0, 0] · slices_S128x5x224x224_S128x4x224x224_0_1_0_0) : (⟨S128x5x224x224, .f32⟩ : BufTy).Contents (Elt F) → (⟨S128x4x224x224, .f32⟩ : BufTy).Contents (Elt F)),
    binary main_arg2 main_v19 main_v20 (subf : (⟨S128x4x224x224, .f32⟩ : BufTy).Contents (Elt F) → (⟨S128x4x224x224, .f32⟩ : BufTy).Contents (Elt F) → (⟨S128x4x224x224, .f32⟩ : BufTy).Contents (Elt F)),
    binary main_v20 main_v20 main_v21 (mulf : (⟨S128x4x224x224, .f32⟩ : BufTy).Contents (Elt F) → (⟨S128x4x224x224, .f32⟩ : BufTy).Contents (Elt F) → (⟨S128x4x224x224, .f32⟩ : BufTy).Contents (Elt F)),
    nullary main_cst_7 (constant S_ .f32 0x00000000#32),
    binary main_v21 main_cst_7 main_v22 ((fun x v => Host.reduceAdd x v reducesTo_S128x4x224x224_S128x224x224_d1 h_S_) : (⟨S128x4x224x224, .f32⟩ : BufTy).Contents (Elt F) → (⟨S_, .f32⟩ : BufTy).Contents (Elt F) → (⟨S128x224x224, .f32⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S128x224x224, .f32⟩) main_call2_v1) (broadcastInDim S128x224x224 ![] bcast_S_S128x224x224),
    TRef.ternary (TRef.of (T := ⟨S128x224x224, .i1⟩) main_v3) (TRef.of (T := ⟨S128x224x224, .f32⟩) main_v22) (TRef.of (T := ⟨S128x224x224, .f32⟩) main_call2_v1) (TRef.of (T := ⟨S128x224x224, .f32⟩) main_v23) select,
    nullary main_cst_9 (constant S_ .f32 0x00000000#32),
    binary main_v23 main_cst_9 main_v24 ((fun x v => Host.reduceAdd x v reducesTo_S128x224x224_S_d0_1_2 h_S_) : (⟨S128x224x224, .f32⟩ : BufTy).Contents (Elt F) → (⟨S_, .f32⟩ : BufTy).Contents (Elt F) → (⟨S_, .f32⟩ : BufTy).Contents (Elt F)),
    TRef.nullary (TRef.of (T := ⟨S_, .f32⟩) main_call3_cst) (constant S_ .f32 0xFF800000#32),
    TRef.binary (TRef.of (T := ⟨S128x1000, .f32⟩) main_arg1) (TRef.of (T := ⟨S_, .f32⟩) main_call3_cst) (TRef.of (T := ⟨S128, .f32⟩) main_call3_v0) (fun x v => Host.reduce FloatOps.maximumf x v reducesTo_S128x1000_S128_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S128, .f32⟩) main_call3_v1) (broadcastInDim S128 ![] bcast_S_S128),
    TRef.binary (TRef.of (T := ⟨S128, .f32⟩) main_call3_v1) (TRef.of (T := ⟨S128, .f32⟩) main_call3_v0) (TRef.of (T := ⟨S128, .f32⟩) main_call3_v2) maximumf,
    TRef.unary (TRef.of (T := ⟨S128, .f32⟩) main_call3_v2) (TRef.of (T := ⟨S128x1, .f32⟩) main_call3_v3) (broadcastInDim S128x1 ![0] bcast_S128_S128x1_0),
    TRef.unary (TRef.of (T := ⟨S128x1, .f32⟩) main_call3_v3) (TRef.of (T := ⟨S128x1000, .f32⟩) main_call3_v4) (broadcastInDim S128x1000 ![0, 1] bcast_S128x1_S128x1000_0_1),
    TRef.binary (TRef.of (T := ⟨S128x1000, .f32⟩) main_arg1) (TRef.of (T := ⟨S128x1000, .f32⟩) main_call3_v4) (TRef.of (T := ⟨S128x1000, .f32⟩) main_call3_v5) subf,
    TRef.unary (TRef.of (T := ⟨S128x1000, .f32⟩) main_call3_v5) (TRef.of (T := ⟨S128x1000, .f32⟩) main_call3_v6) Host.exp,
    TRef.nullary (TRef.of (T := ⟨S_, .f32⟩) main_call3_cst_1) (constant S_ .f32 0x00000000#32),
    TRef.binary (TRef.of (T := ⟨S128x1000, .f32⟩) main_call3_v6) (TRef.of (T := ⟨S_, .f32⟩) main_call3_cst_1) (TRef.of (T := ⟨S128, .f32⟩) main_call3_v7) (fun x v => Host.reduceAdd x v reducesTo_S128x1000_S128_d1 h_S_),
    TRef.unary (TRef.of (T := ⟨S128, .f32⟩) main_call3_v7) (TRef.of (T := ⟨S128x1, .f32⟩) main_call3_v8) (broadcastInDim S128x1 ![0] bcast_S128_S128x1_0),
    TRef.unary (TRef.of (T := ⟨S128x1, .f32⟩) main_call3_v8) (TRef.of (T := ⟨S128x1, .f32⟩) main_call3_v9) Host.log,
    TRef.unary (TRef.of (T := ⟨S128x1, .f32⟩) main_call3_v9) (TRef.of (T := ⟨S128x1000, .f32⟩) main_call3_v10) (broadcastInDim S128x1000 ![0, 1] bcast_S128x1_S128x1000_0_1),
    TRef.binary (TRef.of (T := ⟨S128x1000, .f32⟩) main_call3_v5) (TRef.of (T := ⟨S128x1000, .f32⟩) main_call3_v10) (TRef.of (T := ⟨S128x1000, .f32⟩) main_v25) subf,
    unary main_arg3 main_v26 (broadcastInDim S128x1 ![0] bcast_S128_S128x1_0 : (⟨S128, .i32⟩ : BufTy).Contents (Elt F) → (⟨S128x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S128x1, .i32⟩) main_call4_v0) (broadcastInDim S128x1 ![] bcast_S_S128x1),
    TRef.binary (TRef.of (T := ⟨S128x1, .i32⟩) main_v26) (TRef.of (T := ⟨S128x1, .i32⟩) main_call4_v0) (TRef.of (T := ⟨S128x1, .i1⟩) main_call4_v1) (cmpi .slt),
    TRef.nullary (TRef.of (T := ⟨S_, .i32⟩) main_call4_c_0) (constantI S_ 32 1000#32),
    TRef.unary (TRef.of (T := ⟨S_, .i32⟩) main_call4_c_0) (TRef.of (T := ⟨S128x1, .i32⟩) main_call4_v2) (broadcastInDim S128x1 ![] bcast_S_S128x1),
    TRef.binary (TRef.of (T := ⟨S128x1, .i32⟩) main_v26) (TRef.of (T := ⟨S128x1, .i32⟩) main_call4_v2) (TRef.of (T := ⟨S128x1, .i32⟩) main_call4_v3) addi,
    TRef.ternary (TRef.of (T := ⟨S128x1, .i1⟩) main_call4_v1) (TRef.of (T := ⟨S128x1, .i32⟩) main_call4_v3) (TRef.of (T := ⟨S128x1, .i32⟩) main_v26) (TRef.of (T := ⟨S128x1, .i32⟩) main_call4_v4) select,
    TRef.reshape (TRef.of (T := ⟨S128x1, .i32⟩) main_call4_v4) (TRef.of (T := ⟨S128x1x1, .i32⟩) main_call4_v5) rfl shapeCasts_S128x1_S128x1x1,
    TRef.nullary (TRef.of (T := ⟨S1, .i32⟩) main_call4_c_1) (constantI S1 32 999#32),
    TRef.nullary (TRef.of (T := ⟨S_, .i32⟩) main_call4_c_2) (constantI S_ 32 0#32),
    TRef.unary (TRef.of (T := ⟨S_, .i32⟩) main_call4_c_2) (TRef.of (T := ⟨S128x1x1, .i32⟩) main_call4_v6) (broadcastInDim S128x1x1 ![] bcast_S_S128x1x1),
    TRef.binary (TRef.of (T := ⟨S128x1x1, .i32⟩) main_call4_v5) (TRef.of (T := ⟨S128x1x1, .i32⟩) main_call4_v6) (TRef.of (T := ⟨S128x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S128x1x1, .i32⟩) main_call4_v9) (broadcastInDim S128x1x1 ![0, 1, 2] bcast_S1x1x1_S128x1x1_0_1_2),
    TRef.binary (TRef.of (T := ⟨S128x1x1, .i32⟩) main_call4_v5) (TRef.of (T := ⟨S128x1x1, .i32⟩) main_call4_v9) (TRef.of (T := ⟨S128x1x1, .i1⟩) main_call4_v10) (cmpi .sle),
    TRef.binary (TRef.of (T := ⟨S128x1x1, .i1⟩) main_call4_v7) (TRef.of (T := ⟨S128x1x1, .i1⟩) main_call4_v10) (TRef.of (T := ⟨S128x1x1, .i1⟩) main_call4_v11) andi,
    TRef.nullary (TRef.of (T := ⟨S_, .i1⟩) main_call4_c_3) (constantI S_ 1 1#1),
    TRef.binary (TRef.of (T := ⟨S128x1x1, .i1⟩) main_call4_v11) (TRef.of (T := ⟨S_, .i1⟩) main_call4_c_3) (TRef.of (T := ⟨S128x1, .i1⟩) main_call4_v12) (fun x v => Host.reduce IntOp.andi x v reducesTo_S128x1x1_S128x1_d2 h_S_),
    TRef.binary (TRef.of (T := ⟨S128x1000, .f32⟩) main_v25) (TRef.of (T := ⟨S128x1x1, .i32⟩) main_call4_v5) (TRef.of (T := ⟨S128x1, .f32⟩) main_call4_v13) (fun x i => Host.gather gather_S128x1000_S128x1x1_S128x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S128x1, .f32⟩) main_call4_v14) (broadcastInDim S128x1 ![] bcast_S_S128x1),
    TRef.ternary (TRef.of (T := ⟨S128x1, .i1⟩) main_call4_v12) (TRef.of (T := ⟨S128x1, .f32⟩) main_call4_v13) (TRef.of (T := ⟨S128x1, .f32⟩) main_call4_v14) (TRef.of (T := ⟨S128x1, .f32⟩) main_v27) select,
    nullary main_cst_10 (constant S_ .f32 0x00000000#32),
    binary main_v27 main_cst_10 main_v28 ((fun x v => Host.reduceAdd x v reducesTo_S128x1_S_d0_1 h_S_) : (⟨S128x1, .f32⟩ : BufTy).Contents (Elt F) → (⟨S_, .f32⟩ : BufTy).Contents (Elt F) → (⟨S_, .f32⟩ : BufTy).Contents (Elt F)),
    nullary main_cst_11 (constant S_ .f32 0x43000000#32),
    binary main_v28 main_cst_11 main_v29 (Host.divf : (⟨S_, .f32⟩ : BufTy).Contents (Elt F) → (⟨S_, .f32⟩ : BufTy).Contents (Elt F) → (⟨S_, .f32⟩ : BufTy).Contents (Elt F)),
    unary main_v29 main_v30 (Host.negf : (⟨S_, .f32⟩ : BufTy).Contents (Elt F) → (⟨S_, .f32⟩ : BufTy).Contents (Elt F)),
    binary main_arg7 main_v30 main_v31 (mulf : (⟨S_, .f32⟩ : BufTy).Contents (Elt F) → (⟨S_, .f32⟩ : BufTy).Contents (Elt F) → (⟨S_, .f32⟩ : BufTy).Contents (Elt F)),
    binary main_arg6 main_v15 main_v32 (mulf : (⟨S_, .f32⟩ : BufTy).Contents (Elt F) → (⟨S_, .f32⟩ : BufTy).Contents (Elt F) → (⟨S_, .f32⟩ : BufTy).Contents (Elt F)),
    binary main_v32 main_v18 main_v33 (addf : (⟨S_, .f32⟩ : BufTy).Contents (Elt F) → (⟨S_, .f32⟩ : BufTy).Contents (Elt F) → (⟨S_, .f32⟩ : BufTy).Contents (Elt F)),
    binary main_arg5 main_v24 main_v34 (mulf : (⟨S_, .f32⟩ : BufTy).Contents (Elt F) → (⟨S_, .f32⟩ : BufTy).Contents (Elt F) → (⟨S_, .f32⟩ : BufTy).Contents (Elt F)),
    binary main_v33 main_v34 main_v35 (addf : (⟨S_, .f32⟩ : BufTy).Contents (Elt F) → (⟨S_, .f32⟩ : BufTy).Contents (Elt F) → (⟨S_, .f32⟩ : BufTy).Contents (Elt F)),
    nullary main_cst_12 (constant S_ .f32 0x43000000#32),
    binary main_v35 main_cst_12 main_v36 (Host.divf : (⟨S_, .f32⟩ : BufTy).Contents (Elt F) → (⟨S_, .f32⟩ : BufTy).Contents (Elt F) → (⟨S_, .f32⟩ : BufTy).Contents (Elt F)),
    binary main_v31 main_v36 main_v37 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., unary_bufs_sub .., nullary_bufs_sub .., unary_bufs_sub .., binary_bufs_sub .., unary_bufs_sub .., nullary_bufs_sub .., unary_bufs_sub .., unary_bufs_sub .., ternary_bufs_sub .., nullary_bufs_sub .., binary_bufs_sub .., unary_bufs_sub .., nullary_bufs_sub .., unary_bufs_sub .., unary_bufs_sub .., ternary_bufs_sub .., nullary_bufs_sub .., binary_bufs_sub .., unary_bufs_sub .., binary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub .., binary_bufs_sub .., binary_bufs_sub .., binary_bufs_sub .., binary_bufs_sub .., binary_bufs_sub .., nullary_bufs_sub .., binary_bufs_sub .., binary_bufs_sub ..⟩

/-! A buffer written by a plain operation and read through a typed reference, or the other way round: the transport is the
    identity, the buffer's type being the value's. -/
theorem lone0 (p1 : main_cst_3.ty = (⟨S_, .f32⟩ : BufTy)) (p2 : main_cst_3.space ≠ .host) (p3 : main_cst_3.isScoped = false) (v : (⟨S_, .f32⟩ : BufTy).Contents (Elt F)) :
    (TRef.of (T := ⟨S_, .f32⟩) main_cst_3 p1 p2 p3).ofBuf v = v := rfl
theorem lone1 (p1 : main_v5.ty = (⟨S128x224x224, .i1⟩ : BufTy)) (p2 : main_v5.space ≠ .host) (p3 : main_v5.isScoped = false) (v : (⟨S128x224x224, .i1⟩ : BufTy).Contents (Elt F)) :
    (TRef.of (T := ⟨S128x224x224, .i1⟩) main_v5 p1 p2 p3).ofBuf v = v := rfl
theorem lone2 (p1 : main_v13.ty = (⟨S128x224x224, .f32⟩ : BufTy)) (p2 : main_v13.space ≠ .host) (p3 : main_v13.isScoped = false) (v : (⟨S128x224x224, .f32⟩ : BufTy).Contents (Elt F)) :
    (TRef.of (T := ⟨S128x224x224, .f32⟩) main_v13 p1 p2 p3).ofBuf v = v := rfl
theorem lone3 (p1 : main_cst_5.ty = (⟨S_, .f32⟩ : BufTy)) (p2 : main_cst_5.space ≠ .host) (p3 : main_cst_5.isScoped = false) (v : (⟨S_, .f32⟩ : BufTy).Contents (Elt F)) :
    (TRef.of (T := ⟨S_, .f32⟩) main_cst_5 p1 p2 p3).ofBuf v = v := rfl
theorem lone4 (p1 : main_v3.ty = (⟨S128x224x224, .i1⟩ : BufTy)) (p2 : main_v3.space ≠ .host) (p3 : main_v3.isScoped = false) (v : (⟨S128x224x224, .i1⟩ : BufTy).Contents (Elt F)) :
    (TRef.of (T := ⟨S128x224x224, .i1⟩) main_v3 p1 p2 p3).ofBuf v = v := rfl
theorem lone5 (p1 : main_v16.ty = (⟨S128x224x224, .f32⟩ : BufTy)) (p2 : main_v16.space ≠ .host) (p3 : main_v16.isScoped = false) (v : (⟨S128x224x224, .f32⟩ : BufTy).Contents (Elt F)) :
    (TRef.of (T := ⟨S128x224x224, .f32⟩) main_v16 p1 p2 p3).ofBuf v = v := rfl
theorem lone6 (p1 : main_cst_8.ty = (⟨S_, .f32⟩ : BufTy)) (p2 : main_cst_8.space ≠ .host) (p3 : main_cst_8.isScoped = false) (v : (⟨S_, .f32⟩ : BufTy).Contents (Elt F)) :
    (TRef.of (T := ⟨S_, .f32⟩) main_cst_8 p1 p2 p3).ofBuf v = v := rfl
theorem lone7 (p1 : main_v22.ty = (⟨S128x224x224, .f32⟩ : BufTy)) (p2 : main_v22.space ≠ .host) (p3 : main_v22.isScoped = false) (v : (⟨S128x224x224, .f32⟩ : BufTy).Contents (Elt F)) :
    (TRef.of (T := ⟨S128x224x224, .f32⟩) main_v22 p1 p2 p3).ofBuf v = v := rfl
theorem lone8 (p1 : main_arg1.ty = (⟨S128x1000, .f32⟩ : BufTy)) (p2 : main_arg1.space ≠ .host) (p3 : main_arg1.isScoped = false) (v : (⟨S128x1000, .f32⟩ : BufTy).Contents (Elt F)) :
    (TRef.of (T := ⟨S128x1000, .f32⟩) main_arg1 p1 p2 p3).ofBuf v = v := rfl
theorem lone9 (p1 : main_v26.ty = (⟨S128x1, .i32⟩ : BufTy)) (p2 : main_v26.space ≠ .host) (p3 : main_v26.isScoped = false) (v : (⟨S128x1, .i32⟩ : BufTy).Contents (Elt F)) :
    (TRef.of (T := ⟨S128x1, .i32⟩) main_v26 p1 p2 p3).ofBuf v = v := rfl
theorem lone10 (p1 : main_v14.ty = (⟨S128x224x224, .f32⟩ : BufTy)) (p2 : main_v14.space ≠ .host) (p3 : main_v14.isScoped = false) (v : (⟨S128x224x224, .f32⟩ : BufTy).Contents (Elt F)) :
    (TRef.of (T := ⟨S128x224x224, .f32⟩) main_v14 p1 p2 p3).toBuf v = v := rfl
theorem lone11 (p1 : main_v17.ty = (⟨S128x224x224, .f32⟩ : BufTy)) (p2 : main_v17.space ≠ .host) (p3 : main_v17.isScoped = false) (v : (⟨S128x224x224, .f32⟩ : BufTy).Contents (Elt F)) :
    (TRef.of (T := ⟨S128x224x224, .f32⟩) main_v17 p1 p2 p3).toBuf v = v := rfl
theorem lone12 (p1 : main_v23.ty = (⟨S128x224x224, .f32⟩ : BufTy)) (p2 : main_v23.space ≠ .host) (p3 : main_v23.isScoped = false) (v : (⟨S128x224x224, .f32⟩ : BufTy).Contents (Elt F)) :
    (TRef.of (T := ⟨S128x224x224, .f32⟩) main_v23 p1 p2 p3).toBuf v = v := rfl
theorem lone13 (p1 : main_v27.ty = (⟨S128x1, .f32⟩ : BufTy)) (p2 : main_v27.space ≠ .host) (p3 : main_v27.isScoped = false) (v : (⟨S128x1, .f32⟩ : BufTy).Contents (Elt F)) :
    (TRef.of (T := ⟨S128x1, .f32⟩) main_v27 p1 p2 p3).toBuf v = v := rfl

set_option maxRecDepth 65536 in
set_option maxHeartbeats 40000000 in
/-- On every device, from any memory with zero counters: every weakly fair execution of @main terminates with the result
    at `res` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = res (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v37).trans (by
        after_results_simp
        simp only [Cert.LibTypedRefs.ofBuf_toBuf]
        simp only [lone0, lone1, lone2, lone3, lone4, lone5, lone6, lone7, lone8, lone9, lone10, lone11, lone12, lone13]
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.lean ====
/- The claim: the kernel's frames, the trivial idealization ledger, and the equality of the two idealized programs'
   results over the extended reals.

   Both programs compute  w7 * (-(C / 128)) + (w6 * S0 + S1 + w5 * S2) / 128,  where C is the classification term (the same
   host operations in both) and S0, S1, S2 are the totals over all 128 * 224 * 224 cells of the no-object log term, the
   object log term and the masked squared coordinate error. The reference sums each whole array at once, from 0. The kernel
   walks the batch in 32 blocks of 4 rows on a 2 x 16 grid; at every point it reduces the block's three term arrays axis by
   axis, multiplies the three totals into one-hot lane patterns and adds the row into an accumulator that restarts at the
   first point of each core's run of 16; the accumulator is written to the core's output row after the run's last point,
   and the host adds lanes 0, 1, 2 of the two rows from 0. Finite sums of extended reals may be regrouped and reordered
   freely, x * 1 = x, x * 0 = 0 and 0 - x = -x hold at every extended real, so the two agree with no finiteness
   hypothesis. -/
import proofs.«161776_j55551107006911_2_alg».proof.Defs
import proofs.«161776_j55551107006911_2_alg».proof.Proof.Gen.Kernel
import proofs.«161776_j55551107006911_2_alg».proof.Proof.Gen.Kernel.Frame
import proofs.«161776_j55551107006911_2_alg».proof.Proof.Gen.KernelIdeal
import proofs.«161776_j55551107006911_2_alg».proof.Proof.Gen.KernelIdeal.Frame
import proofs.«161776_j55551107006911_2_alg».proof.Proof.Gen.ReferenceIdeal
import proofs.«161776_j55551107006911_2_alg».proof.Proof.Gen.Pre_finite_inputs
import proofs.«161776_j55551107006911_2_alg».proof.Proof.KValue
import proofs.«161776_j55551107006911_2_alg».proof.Proof.RValue
import proofs.«161776_j55551107006911_2_alg».proof.Proof.RefRun
import Idealize.ShloMosaic.Adequacy
import Idealize.ShloMosaic.Init

noncomputable section

namespace Cert.Proof

open Idealize.ShloMosaic Idealize.ShloMosaic.TcCoe Idealize.SL.Sem

/-! ## The kernel's run with its result named -/

section KernelRun

open Cert.KernelIdeal Cert.KernelIdeal.Gen Cert.KernelIdeal.TailValue

variable (m : (ℓ : Loc Cert.KernelIdeal.nD Cert.KernelIdeal.τ Cert.KernelIdeal.sig) → Buf (Elt Ideal) ℓ)

/-- What the idealized kernel program leaves in its result. -/
def kres (c : Dev Cert.KernelIdeal.nD) : Buf (Elt Ideal) ((c.tc : Thread Cert.KernelIdeal.nD Cert.KernelIdeal.τ).loc Cert.KernelIdeal.main_v23) :=
  combine (cls (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (laneSum ![0, 0] slices_S2x128_S2x1_0_0 ((dats m 0 c).arrAt 3 cfg0.N))
    (laneSum ![0, 1] slices_S2x128_S2x1_0_1 ((dats m 0 c).arrAt 3 cfg0.N))
    (laneSum ![0, 2] slices_S2x128_S2x1_0_2 ((dats m 0 c).arrAt 3 cfg0.N))

/-- Every weakly fair execution of the idealized kernel program ends with the result at `kres` and the arguments
    unchanged: the generated frame run, its post read at the result (the host operations after the kernel) and at the
    arguments (staged inputs by the pipeline's proof data, the others untouched by the host operations). -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v23) = kres m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c =>
    ⟨((h c).2 main_v23 (Pipeline.mem_restRefs_of main_v23 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

/-- The kernel's result is the reference's result of the same arguments. -/
theorem result_eq (c : Dev Cert.KernelIdeal.nD) :
    kres m c = Cert.ReferenceIdeal.RefTerm.res (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  have hT := fun i => Cert.ReferenceIdeal.RefValue.totals (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) i
  have e0 : laneSum (F := Ideal) ![0, 0] slices_S2x128_S2x1_0_0 ((dats m 0 c).arrAt 3 cfg0.N)
      = Cert.ReferenceIdeal.RefTerm.total (F := Ideal) (Cert.ReferenceIdeal.RefTerm.noobjArr (m ((c.tc : Thread Cert.KernelIdeal.nD Cert.KernelIdeal.τ).loc Cert.KernelIdeal.main_arg0)) (m ((c.tc : Thread Cert.KernelIdeal.nD Cert.KernelIdeal.τ).loc Cert.KernelIdeal.main_arg4))) :=
    funext fun i => (Cert.KernelIdeal.Value.lane_total m c 0 slices_S2x128_S2x1_0_0 i).trans (hT i).1.symm
  have e1 : laneSum (F := Ideal) ![0, 1] slices_S2x128_S2x1_0_1 ((dats m 0 c).arrAt 3 cfg0.N)
      = Cert.ReferenceIdeal.RefTerm.total (F := Ideal) (Cert.ReferenceIdeal.RefTerm.objArr (m ((c.tc : Thread Cert.KernelIdeal.nD Cert.KernelIdeal.τ).loc Cert.KernelIdeal.main_arg0)) (m ((c.tc : Thread Cert.KernelIdeal.nD Cert.KernelIdeal.τ).loc Cert.KernelIdeal.main_arg4))) :=
    funext fun i => (Cert.KernelIdeal.Value.lane_total m c 1 slices_S2x128_S2x1_0_1 i).trans (hT i).2.1.symm
  have e2 : laneSum (F := Ideal) ![0, 2] slices_S2x128_S2x1_0_2 ((dats m 0 c).arrAt 3 cfg0.N)
      = Cert.ReferenceIdeal.RefTerm.total (F := Ideal) (Cert.ReferenceIdeal.RefTerm.coorArr (m ((c.tc : Thread Cert.KernelIdeal.nD Cert.KernelIdeal.τ).loc Cert.KernelIdeal.main_arg2)) (m ((c.tc : Thread Cert.KernelIdeal.nD Cert.KernelIdeal.τ).loc Cert.KernelIdeal.main_arg4))) :=
    funext fun i => (Cert.KernelIdeal.Value.lane_total m c 2 slices_S2x128_S2x1_0_2 i).trans (hT i).2.2.symm
  unfold kres
  rw [e0, e1, e2]
  rfl

end KernelRun

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- The two idealized programs, from memories agreeing on the arguments, end with equal results. -/
theorem algebraic : Cert.algebraic_KernelIdeal_ReferenceIdeal := by
  intro m ρ m' ρ' _ hagree
  refine ⟨fun c => kres m c, kernel_run m ρ, ?_⟩
  refine (θ_run Cert.ReferenceIdeal.defs _ _).mono (fun _ h c => ⟨(h c).1.trans ?_, (h c).2⟩) (Cert.ReferenceIdeal.RefRun.run (F := Ideal) m' ρ')
  obtain ⟨a0, a1, a2, a3, a4, a5, a6, a7⟩ := hagree c
  rw [a0, a1, a2, a3, a4, a5, a6, a7]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
